-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x70 : Shape := ⟨2, ![128, 70]⟩
abbrev S128x70x70 : Shape := ⟨3, ![128, 70, 70]⟩
abbrev S128x128 : Shape := ⟨2, ![128, 128]⟩
abbrev S128x1 : Shape := ⟨2, ![128, 1]⟩
abbrev S40000x100 : Shape := ⟨2, ![40000, 100]⟩
abbrev S100 : Shape := ⟨1, ![100]⟩
abbrev S640000 : Shape := ⟨1, ![640000]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S40000x100 : S_.BroadcastsInDim S40000x100 (![] : Fin 0 → Fin S40000x100.rank)
  reducesTo_S40000x100_S_d0_1 : S40000x100.ReducesTo [0, 1] S_
  bcast_S_S100 : S_.BroadcastsInDim S100 (![] : Fin 0 → Fin S100.rank)
  reducesTo_S100_S_d0 : S100.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg12 : FVec F S100 .f32) (main_arg15 : FVec F S640000 .f32) (main_v33 : IVec S_ 1) : IVec S_ 1 :=
  let main_v34 : FVec F S100 .f32 := Host.absf main_arg12
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S640000 .f32 := Host.absf main_arg15
  let main_cst_14 : FVec F S_ .f32 := constant S_ .f32 0x7F800000#32
  let main_v40 : FVec F S640000 .f32 := broadcastInDim S640000 ![] bcast_S_S640000 main_cst_14
  let main_v41 : IVec S640000 1 := cmpf .olt main_v39 main_v40
  let main_c_15 : IVec S_ 1 := constantI S_ 1 1#1
  let main_v42 : IVec S_ 1 := (fun x v => Host.reduce IntOp.andi x v reducesTo_S640000_S_d0 h_S_) main_v41 main_c_15
  let main_v43 : IVec S_ 1 := andi main_v38 main_v42
  main_v43

def fn_part1 {F : FTy → Type} [FloatOps F] (main_arg9 : FVec F S100 .f32) (main_arg10 : FVec F S100 .f32) (main_arg11 : FVec F S100 .f32) (main_arg12 : FVec F S100 .f32) (main_arg15 : FVec F S640000 .f32) (main_v13 : IVec S_ 1) (main_v16 : IVec S40000x100 1) : IVec S_ 1 :=
  let main_c_5 : IVec S_ 1 := constantI S_ 1 1#1
  let main_v17 : IVec S_ 1 := (fun x v => Host.reduce IntOp.andi x v reducesTo_S40000x100_S_d0_1 h_S_) main_v16 main_c_5
  let main_v18 : IVec S_ 1 := andi main_v13 main_v17
  let main_v19 : FVec F S100 .f32 := Host.absf main_arg9
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100 .f32 := Host.absf main_arg10
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg11
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg12 main_arg15 main_v33

def fn {F : FTy → Type} [FloatOps F] (main_arg0 : IVec S128x70 32) (main_arg1 : IVec S128x70x70 32) (main_arg2 : IVec S128x70 32) (main_arg3 : IVec S128x70 32) (main_arg4 : IVec S128x70 32) (main_arg5 : FVec F S128x128 .f32) (main_arg6 : FVec F S128x128 .f32) (main_arg7 : FVec F S128x1 .f32) (main_arg8 : FVec F S40000x100 .f32) (main_arg9 : FVec F S100 .f32) (main_arg10 : FVec F S100 .f32) (main_arg11 : FVec F S100 .f32) (main_arg12 : FVec F S100 .f32) (main_arg13 : IVec S640000 32) (main_arg14 : IVec S640000 32) (main_arg15 : FVec F S640000 .f32) : IVec S_ 1 :=
  let main_v0 : FVec F S128x128 .f32 := Host.absf main_arg5
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x128 .f32 := Host.absf main_arg6
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg7
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S40000x100 .f32 := Host.absf main_arg8
  let main_cst_4 : FVec F S_ .f32 := constant S_ .f32 0x7F800000#32
  let main_v15 : FVec F S40000x100 .f32 := broadcastInDim S40000x100 ![] bcast_S_S40000x100 main_cst_4
  let main_v16 : IVec S40000x100 1 := cmpf .olt main_v14 main_v15
  fn_part1 (F := F) main_arg9 main_arg10 main_arg11 main_arg12 main_arg15 main_v13 main_v16
-- ==== Kernel.lean ====
abbrev S128x70 : Shape := ⟨2, ![128, 70]⟩
abbrev S128x70x70 : Shape := ⟨3, ![128, 70, 70]⟩
abbrev S128x128 : Shape := ⟨2, ![128, 128]⟩
abbrev S128x1 : Shape := ⟨2, ![128, 1]⟩
abbrev S40000x100 : Shape := ⟨2, ![40000, 100]⟩
abbrev S100 : Shape := ⟨1, ![100]⟩
abbrev S640000 : Shape := ⟨1, ![640000]⟩
abbrev S_ : Shape := ⟨0, ![]⟩
abbrev S128x70x1 : Shape := ⟨3, ![128, 70, 1]⟩
abbrev S128x70x100 : Shape := ⟨3, ![128, 70, 100]⟩
abbrev S640000x1 : Shape := ⟨2, ![640000, 1]⟩
abbrev S640000x100 : Shape := ⟨2, ![640000, 100]⟩
abbrev S1x100 : Shape := ⟨2, ![1, 100]⟩
abbrev S40001x100 : Shape := ⟨2, ![40001, 100]⟩
abbrev S4x100 : Shape := ⟨2, ![4, 100]⟩
abbrev S1x70x100 : Shape := ⟨3, ![1, 70, 100]⟩
abbrev S1x70x70 : Shape := ⟨3, ![1, 70, 70]⟩
abbrev S70x100 : Shape := ⟨2, ![70, 100]⟩
abbrev S70x70 : Shape := ⟨2, ![70, 70]⟩
abbrev S100x70 : Shape := ⟨2, ![100, 70]⟩
abbrev S70 : Shape := ⟨1, ![70]⟩
abbrev S70x1 : Shape := ⟨2, ![70, 1]⟩
abbrev S128x100 : Shape := ⟨2, ![128, 100]⟩

abbrev nBuf : Space → Nat
  | .hbm => 97
  | .vmem => 13
  | .smem => 0
  | _ => 0

abbrev bufTy : (tb : Table) → Fin (tcTables nBuf tb) → BufTy
  | .hbm, ⟨0, _⟩ => ⟨S128x70, .i32⟩
  | .hbm, ⟨1, _⟩ => ⟨S128x70x70, .i32⟩
  | .hbm, ⟨2, _⟩ => ⟨S128x70, .i32⟩
  | .hbm, ⟨3, _⟩ => ⟨S128x70, .i32⟩
  | .hbm, ⟨4, _⟩ => ⟨S128x70, .i32⟩
  | .hbm, ⟨5, _⟩ => ⟨S128x128, .f32⟩
  | .hbm, ⟨6, _⟩ => ⟨S128x128, .f32⟩
  | .hbm, ⟨7, _⟩ => ⟨S128x1, .f32⟩
  | .hbm, ⟨8, _⟩ => ⟨S40000x100, .f32⟩
  | .hbm, ⟨9, _⟩ => ⟨S100, .f32⟩
  | .hbm, ⟨10, _⟩ => ⟨S100, .f32⟩
  | .hbm, ⟨11, _⟩ => ⟨S100, .f32⟩
  | .hbm, ⟨12, _⟩ => ⟨S100, .f32⟩
  | .hbm, ⟨13, _⟩ => ⟨S640000, .i32⟩
  | .hbm, ⟨14, _⟩ => ⟨S640000, .i32⟩
  | .hbm, ⟨15, _⟩ => ⟨S640000, .f32⟩
  | .hbm, ⟨16, _⟩ => ⟨S_, .i32⟩
  | .hbm, ⟨17, _⟩ => ⟨S128x70, .i32⟩
  | .hbm, ⟨18, _⟩ => ⟨S128x70, .i1⟩
  | .hbm, ⟨19, _⟩ => ⟨S_, .i32⟩
  | .hbm, ⟨20, _⟩ => ⟨S128x70, .i32⟩
  | .hbm, ⟨21, _⟩ => ⟨S128x70, .i32⟩
  | .hbm, ⟨22, _⟩ => ⟨S128x70, .i32⟩
  | .hbm, ⟨23, _⟩ => ⟨S128x70x1, .i32⟩
  | .hbm, ⟨24, _⟩ => ⟨S128x70x100, .f32⟩
  | .hbm, ⟨25, _⟩ => ⟨S640000x1, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x100, .f32⟩
  | .hbm, ⟨35, _⟩ => ⟨S640000x100, .f32⟩
  | .hbm, ⟨36, _⟩ => ⟨S640000x100, .f32⟩
  | .hbm, ⟨37, _⟩ => ⟨S_, .f32⟩
  | .hbm, ⟨38, _⟩ => ⟨S40000x100, .f32⟩
  | .hbm, ⟨39, _⟩ => ⟨S640000x1, .i32⟩
  | .hbm, ⟨40, _⟩ => ⟨S40000x100, .f32⟩
  | .hbm, ⟨41, _⟩ => ⟨S40000x100, .f32⟩
  | .hbm, ⟨42, _⟩ => ⟨S640000x1, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x100, .f32⟩
  | .hbm, ⟨52, _⟩ => ⟨S640000x100, .f32⟩
  | .hbm, ⟨53, _⟩ => ⟨S640000x100, .f32⟩
  | .hbm, ⟨54, _⟩ => ⟨S_, .f32⟩
  | .hbm, ⟨55, _⟩ => ⟨S40000x100, .f32⟩
  | .hbm, ⟨56, _⟩ => ⟨S640000x1, .i32⟩
  | .hbm, ⟨57, _⟩ => ⟨S40000x100, .f32⟩
  | .hbm, ⟨58, _⟩ => ⟨S40000x100, .f32⟩
  | .hbm, ⟨59, _⟩ => ⟨S_, .f32⟩
  | .hbm, ⟨60, _⟩ => ⟨S40000x100, .f32⟩
  | .hbm, ⟨61, _⟩ => ⟨S40000x100, .f32⟩
  | .hbm, ⟨62, _⟩ => ⟨S_, .f32⟩
  | .hbm, ⟨63, _⟩ => ⟨S1x100, .f32⟩
  | .hbm, ⟨64, _⟩ => ⟨S40001x100, .f32⟩
  | .hbm, ⟨65, _⟩ => ⟨S_, .i32⟩
  | .hbm, ⟨66, _⟩ => ⟨S128x70, .i32⟩
  | .hbm, ⟨67, _⟩ => ⟨S128x70, .i1⟩
  | .hbm, ⟨68, _⟩ => ⟨S_, .i32⟩
  | .hbm, ⟨69, _⟩ => ⟨S128x70, .i32⟩
  | .hbm, ⟨70, _⟩ => ⟨S128x70, .i32⟩
  | .hbm, ⟨71, _⟩ => ⟨S128x70, .i32⟩
  | .hbm, ⟨72, _⟩ => ⟨S128x70x1, .i32⟩
  | .hbm, ⟨73, _⟩ => ⟨S128x70x100, .f32⟩
  | .hbm, ⟨74, _⟩ => ⟨S1x100, .f32⟩
  | .hbm, ⟨75, _⟩ => ⟨S1x100, .f32⟩
  | .hbm, ⟨76, _⟩ => ⟨S1x100, .f32⟩
  | .hbm, ⟨77, _⟩ => ⟨S1x100, .f32⟩
  | .hbm, ⟨78, _⟩ => ⟨S4x100, .f32⟩
  | .hbm, ⟨79, _⟩ => ⟨S128x70x100, .f32⟩
  | .hbm, ⟨80, _⟩ => ⟨S_, .f32⟩
  | .hbm, ⟨81, _⟩ => ⟨S1x100, .f32⟩
  | .hbm, ⟨82, _⟩ => ⟨S40001x100, .f32⟩
  | .hbm, ⟨83, _⟩ => ⟨S_, .i32⟩
  | .hbm, ⟨84, _⟩ => ⟨S128x70, .i32⟩
  | .hbm, ⟨85, _⟩ => ⟨S128x70, .i1⟩
  | .hbm, ⟨86, _⟩ => ⟨S_, .i32⟩
  | .hbm, ⟨87, _⟩ => ⟨S128x70, .i32⟩
  | .hbm, ⟨88, _⟩ => ⟨S128x70, .i32⟩
  | .hbm, ⟨89, _⟩ => ⟨S128x70, .i32⟩
  | .hbm, ⟨90, _⟩ => ⟨S128x70x1, .i32⟩
  | .hbm, ⟨91, _⟩ => ⟨S128x70x100, .f32⟩
  | .hbm, ⟨92, _⟩ => ⟨S_, .f32⟩
  | .hbm, ⟨93, _⟩ => ⟨S128x100, .f32⟩
  | .hbm, ⟨94, _⟩ => ⟨S128x100, .f32⟩
  | .hbm, ⟨95, _⟩ => ⟨S128x100, .f32⟩
  | .hbm, ⟨96, _⟩ => ⟨S128x100, .f32⟩
  | .local _ .vmem, ⟨0, _⟩ => ⟨S1x70x100, .f32⟩
  | .local _ .vmem, ⟨1, _⟩ => ⟨S1x70x100, .f32⟩
  | .local _ .vmem, ⟨2, _⟩ => ⟨S1x70x70, .i32⟩
  | .local _ .vmem, ⟨3, _⟩ => ⟨S1x70x70, .i32⟩
  | .local _ .vmem, ⟨4, _⟩ => ⟨S4x100, .f32⟩
  | .local _ .vmem, ⟨5, _⟩ => ⟨S1x70x100, .f32⟩
  | .local _ .vmem, ⟨6, _⟩ => ⟨S1x70x100, .f32⟩
  | .local _ .vmem, ⟨7, _⟩ => ⟨S1x70x100, .f32⟩
  | .local _ .vmem, ⟨8, _⟩ => ⟨S1x70x100, .f32⟩
  | .local _ .vmem, ⟨9, _⟩ => ⟨S128x128, .f32⟩
  | .local _ .vmem, ⟨10, _⟩ => ⟨S128x128, .f32⟩
  | .local _ .vmem, ⟨11, _⟩ => ⟨S128x100, .f32⟩
  | .local _ .vmem, ⟨12, _⟩ => ⟨S128x100, .f32⟩
  | _, _ => ⟨S128x70, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x70x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x70x70 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x70x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x70x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bcast_S_S128x70 : S_.BroadcastsInDim S128x70 (![] : Fin 0 → Fin S128x70.rank)
  bcast_S128x70_S128x70x1_0_1 : S128x70.BroadcastsInDim S128x70x1 (![0, 1] : Fin 2 → Fin S128x70x1.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x100_0_1 : S640000x1.BroadcastsInDim S640000x100 (![0, 1] : Fin 2 → Fin S640000x100.rank)
  bcast_S_S40000x100 : S_.BroadcastsInDim S40000x100 (![] : Fin 0 → Fin S40000x100.rank)
  bcast_S_S1x100 : S_.BroadcastsInDim S1x100 (![] : Fin 0 → Fin S1x100.rank)
  concatenates_S1x100_S40000x100_S40001x100_d0 : Shape.Concatenates [S1x100, S40000x100] S40001x100 0
  bcast_S100_S1x100_1 : S100.BroadcastsInDim S1x100 (![1] : Fin 1 → Fin S1x100.rank)
  concatenates_S1x100_S1x100_S1x100_S1x100_S4x100_d0 : Shape.Concatenates [S1x100, S1x100, S1x100, S1x100] S4x100 0
  inb_S1x70x100_S1x70x100_0_0_0 : ∀ a, (![0, 0, 0] : Fin 3 → Nat) a + S1x70x100.size a ≤ S1x70x100.size a
  h_S1x70x100 : 0 < S1x70x100.numel
  shapeCasts_S1x70x100_S70x100 : S1x70x100.ShapeCasts S70x100
  inb_S1x70x70_S1x70x70_0_0_0 : ∀ a, (![0, 0, 0] : Fin 3 → Nat) a + S1x70x70.size a ≤ S1x70x70.size a
  h_S1x70x70 : 0 < S1x70x70.numel
  shapeCasts_S1x70x70_S70x70 : S1x70x70.ShapeCasts S70x70
  inb_S4x100_S4x100_0_0 : ∀ a, (![0, 0] : Fin 2 → Nat) a + S4x100.size a ≤ S4x100.size a
  h_S4x100 : 0 < S4x100.numel
  shapeCasts_S4x100_S4x100 : S4x100.ShapeCasts S4x100
  slices_S4x100_o0_0_S1x100 : S4x100.Slices ![0, 0] S1x100
  shapeCasts_S1x100_S100 : S1x100.ShapeCasts S100
  shapeCasts_S100_S1x100 : S100.ShapeCasts S1x100
  broadcasts_S1x100_S70x100 : S1x100.Broadcasts S70x100
  transposes_S70x100_p1_0_S100x70 : S70x100.Transposes [1, 0] S100x70
  slices_S4x100_o1_0_S1x100 : S4x100.Slices ![1, 0] S1x100
  slices_S4x100_o2_0_S1x100 : S4x100.Slices ![2, 0] S1x100
  slices_S4x100_o3_0_S1x100 : S4x100.Slices ![3, 0] S1x100
  reduces_S70x70_S70 : S70x70.Reduces [1] S70
  shapeCasts_S70_S70x1 : S70.ShapeCasts S70x1
  broadcasts_S70x1_S70x70 : S70x1.Broadcasts S70x70
  shapeCasts_S70x100_S1x70x100 : S70x100.ShapeCasts S1x70x100
  reducesTo_S128x70x100_S128x100_d1 : S128x70x100.ReducesTo [1] S128x100
  h_S_ : 0 < S_.numel
  bcast_S128x1_S128x100_0_1 : S128x1.BroadcastsInDim S128x100 (![0, 1] : Fin 2 → Fin S128x100.rank)
  inb_S128x128_S128x128_0_0 : ∀ a, (![0, 0] : Fin 2 → Nat) a + S128x128.size a ≤ S128x128.size a
  h_S128x128 : 0 < S128x128.numel
  inb_S128x100_S128x100_0_0 : ∀ a, (![0, 0] : Fin 2 → Nat) a + S128x100.size a ≤ S128x100.size a
  h_S128x100 : 0 < S128x100.numel
  shapeCasts_S128x100_S128x100 : S128x100.ShapeCasts S128x100
  gather_S40000x100_S128x70x1_S128x70x100_2_0_n_n_0_2_1100_wf : GatherDims.WF S40000x100 S128x70x1 S128x70x100 [2] [0] [] [0] [] 2 ![1, 100]
  gather_S40000x100_S640000x1_S640000x100_1_0_n_n_0_1_1100_wf : GatherDims.WF S40000x100 S640000x1 S640000x100 [1] [0] [] [0] [] 1 ![1, 100]
  scatter_S40000x100_S640000x1_S640000x100_1_0_0_1_wf : ScatterDims.WF S40000x100 S640000x1 S640000x100 [1] [0] [0] 1
  gather_S40001x100_S128x70x1_S128x70x100_2_0_n_n_0_2_1100_wf : GatherDims.WF S40001x100 S128x70x1 S128x70x100 [2] [0] [] [0] [] 2 ![1, 100]
  dot_S70x100_S100x70_S70x70_1_0_0_1_n_n_wf : DotDims.WF S70x100 S100x70 S70x70 [1] [0] [0] [1] [] []
  dot_S70x70_S70x100_S70x100_1_0_0_1_n_n_wf : DotDims.WF S70x70 S70x100 S70x100 [1] [0] [0] [1] [] []
  dot_S128x128_S128x128_S128x128_1_0_0_1_n_n_wf : DotDims.WF S128x128 S128x128 S128x128 [1] [0] [0] [1] [] []
  dot_S128x128_S128x100_S128x100_1_0_0_1_n_n_wf : DotDims.WF S128x128 S128x100 S128x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x70x100.size a ≤ S128x70x100.size a
  hwx0_0 : ∀ i : grid0.Coords, EltTy.bits .f32 = 32 ∨ (Rect.block (s := S128x70x100) S1x70x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x70x70.size a ≤ S128x70x70.size a
  hwx0_1 : ∀ i : grid0.Coords, EltTy.bits .i32 = 32 ∨ (Rect.block (s := S128x70x70) S1x70x70.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x100.size a ≤ S4x100.size a
  hwx0_2 : ∀ i : grid0.Coords, EltTy.bits .f32 = 32 ∨ (Rect.block (s := S4x100) S4x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x70x100.size a ≤ S128x70x100.size a
  hwx0_3 : ∀ i : grid0.Coords, EltTy.bits .f32 = 32 ∨ (Rect.block (s := S128x70x100) S1x70x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x70x100.size a ≤ S128x70x100.size a
  hwx0_4 : ∀ i : grid0.Coords, EltTy.bits .f32 = 32 ∨ (Rect.block (s := S128x70x100) S1x70x100.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x100.size a ≤ S128x100.size a
  hwx1_2 : ∀ i : grid1.Coords, EltTy.bits .f32 = 32 ∨ (Rect.block (s := S128x100) S128x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x100.size a ≤ S128x100.size a
  hwx1_3 : ∀ i : grid1.Coords, EltTy.bits .f32 = 32 ∨ (Rect.block (s := S128x100) S128x100.size (cc1_transform_3 i) (hinb1_3 i)).WholeWords (EltTy.packing .f32)

variable [Facts₀]

def gather_S40000x100_S128x70x1_S128x70x100_2_0_n_n_0_2_1100 : GatherDims S40000x100 S128x70x1 S128x70x100 where
  offsetDims := [2]
  collapsedSliceDims := [0]
  operandBatchingDims := []
  startIndicesBatchingDims := []
  startIndexMap := [0]
  indexVectorDim := 2
  sliceSizes := ![1, 100]
  wf := gather_S40000x100_S128x70x1_S128x70x100_2_0_n_n_0_2_1100_wf
def gather_S40000x100_S640000x1_S640000x100_1_0_n_n_0_1_1100 : GatherDims S40000x100 S640000x1 S640000x100 where
  offsetDims := [1]
  collapsedSliceDims := [0]
  operandBatchingDims := []
  startIndicesBatchingDims := []
  startIndexMap := [0]
  indexVectorDim := 1
  sliceSizes := ![1, 100]
  wf := gather_S40000x100_S640000x1_S640000x100_1_0_n_n_0_1_1100_wf
def scatter_S40000x100_S640000x1_S640000x100_1_0_0_1 : ScatterDims S40000x100 S640000x1 S640000x100 where
  updateWindowDims := [1]
  insertedWindowDims := [0]
  scatterDimsToOperandDims := [0]
  indexVectorDim := 1
  wf := scatter_S40000x100_S640000x1_S640000x100_1_0_0_1_wf
def gather_S40001x100_S128x70x1_S128x70x100_2_0_n_n_0_2_1100 : GatherDims S40001x100 S128x70x1 S128x70x100 where
  offsetDims := [2]
  collapsedSliceDims := [0]
  operandBatchingDims := []
  startIndicesBatchingDims := []
  startIndexMap := [0]
  indexVectorDim := 2
  sliceSizes := ![1, 100]
  wf := gather_S40001x100_S128x70x1_S128x70x100_2_0_n_n_0_2_1100_wf
def dot_S70x100_S100x70_S70x70_1_0_0_1_n_n : DotDims S70x100 S100x70 S70x70 where
  lhsContracting := [1]
  rhsContracting := [0]
  lhsNonContracting := [0]
  rhsNonContracting := [1]
  lhsBatch := []
  rhsBatch := []
  wf := dot_S70x100_S100x70_S70x70_1_0_0_1_n_n_wf
def dot_S70x70_S70x100_S70x100_1_0_0_1_n_n : DotDims S70x70 S70x100 S70x100 where
  lhsContracting := [1]
  rhsContracting := [0]
  lhsNonContracting := [0]
  rhsNonContracting := [1]
  lhsBatch := []
  rhsBatch := []
  wf := dot_S70x70_S70x100_S70x100_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x100_S128x100_1_0_0_1_n_n : DotDims S128x128 S128x100 S128x100 where
  lhsContracting := [1]
  rhsContracting := [0]
  lhsNonContracting := [0]
  rhsNonContracting := [1]
  lhsBatch := []
  rhsBatch := []
  wf := dot_S128x128_S128x100_S128x100_1_0_0_1_n_n_wf

abbrev win0_0 : Pipeline.Window sig grid0 :=
  Pipeline.Window.ofSpec (Memref.whole main_v6) S1x70x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x70x70.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S4x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x70x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x70x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg5) S128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S128x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S128x100.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x70 : Shape := ⟨2, ![128, 70]⟩
abbrev S128x70x70 : Shape := ⟨3, ![128, 70, 70]⟩
abbrev S128x128 : Shape := ⟨2, ![128, 128]⟩
abbrev S128x1 : Shape := ⟨2, ![128, 1]⟩
abbrev S40000x100 : Shape := ⟨2, ![40000, 100]⟩
abbrev S100 : Shape := ⟨1, ![100]⟩
abbrev S640000 : Shape := ⟨1, ![640000]⟩
abbrev S_ : Shape := ⟨0, ![]⟩
abbrev S128x70x1 : Shape := ⟨3, ![128, 70, 1]⟩
abbrev S128x70x100 : Shape := ⟨3, ![128, 70, 100]⟩
abbrev S1x1x100 : Shape := ⟨3, ![1, 1, 100]⟩
abbrev S640000x1 : Shape := ⟨2, ![640000, 1]⟩
abbrev S640000x100 : Shape := ⟨2, ![640000, 100]⟩
abbrev S1x100 : Shape := ⟨2, ![1, 100]⟩
abbrev S40001x100 : Shape := ⟨2, ![40001, 100]⟩
abbrev S128x100 : Shape := ⟨2, ![128, 100]⟩

abbrev nBuf : Space → Nat
  | .hbm => 176
  | .vmem => 0
  | .smem => 0
  | _ => 0

abbrev hbmTy0_0 (i : Nat) : BufTy := match i % 128 with
  | 0 => ⟨S128x70, .i32⟩
  | 1 => ⟨S128x70x70, .i32⟩
  | 2 => ⟨S128x70, .i32⟩
  | 3 => ⟨S128x70, .i32⟩
  | 4 => ⟨S128x70, .i32⟩
  | 5 => ⟨S128x128, .f32⟩
  | 6 => ⟨S128x128, .f32⟩
  | 7 => ⟨S128x1, .f32⟩
  | 8 => ⟨S40000x100, .f32⟩
  | 9 => ⟨S100, .f32⟩
  | 10 => ⟨S100, .f32⟩
  | 11 => ⟨S100, .f32⟩
  | 12 => ⟨S100, .f32⟩
  | 13 => ⟨S640000, .i32⟩
  | 14 => ⟨S640000, .i32⟩
  | 15 => ⟨S640000, .f32⟩
  | 16 => ⟨S_, .i32⟩
  | 17 => ⟨S128x70, .i32⟩
  | 18 => ⟨S128x70, .i1⟩
  | 19 => ⟨S_, .i32⟩
  | 20 => ⟨S128x70, .i32⟩
  | 21 => ⟨S128x70, .i32⟩
  | 22 => ⟨S128x70, .i32⟩
  | 23 => ⟨S128x70x1, .i32⟩
  | 24 => ⟨S128x70x100, .f32⟩
  | 25 => ⟨S1x1x100, .f32⟩
  | 26 => ⟨S128x70x100, .f32⟩
  | 27 => ⟨S128x70x100, .f32⟩
  | 28 => ⟨S128x70x70, .f32⟩
  | 29 => ⟨S_, .f32⟩
  | 30 => ⟨S128x70x70, .f32⟩
  | 31 => ⟨S128x70x70, .i1⟩
  | 32 => ⟨S_, .f32⟩
  | 33 => ⟨S128x70x70, .f32⟩
  | 34 => ⟨S128x70x70, .f32⟩
  | 35 => ⟨S128x70x70, .f32⟩
  | 36 => ⟨S1x1x100, .f32⟩
  | 37 => ⟨S128x70x100, .f32⟩
  | 38 => ⟨S128x70x100, .f32⟩
  | 39 => ⟨S128x70x70, .f32⟩
  | 40 => ⟨S_, .f32⟩
  | 41 => ⟨S128x70x70, .f32⟩
  | 42 => ⟨S128x70x70, .i1⟩
  | 43 => ⟨S_, .f32⟩
  | 44 => ⟨S128x70x70, .f32⟩
  | 45 => ⟨S128x70x70, .f32⟩
  | 46 => ⟨S128x70x70, .f32⟩
  | 47 => ⟨S1x1x100, .f32⟩
  | 48 => ⟨S128x70x100, .f32⟩
  | 49 => ⟨S128x70x100, .f32⟩
  | 50 => ⟨S128x70x70, .f32⟩
  | 51 => ⟨S_, .f32⟩
  | 52 => ⟨S128x70x70, .f32⟩
  | 53 => ⟨S128x70x70, .i1⟩
  | 54 => ⟨S_, .f32⟩
  | 55 => ⟨S128x70x70, .f32⟩
  | 56 => ⟨S128x70x70, .f32⟩
  | 57 => ⟨S128x70x70, .f32⟩
  | 58 => ⟨S1x1x100, .f32⟩
  | 59 => ⟨S128x70x100, .f32⟩
  | 60 => ⟨S128x70x100, .f32⟩
  | 61 => ⟨S128x70x70, .f32⟩
  | 62 => ⟨S_, .f32⟩
  | 63 => ⟨S128x70x70, .f32⟩
  | 64 => ⟨S128x70x70, .i1⟩
  | 65 => ⟨S_, .f32⟩
  | 66 => ⟨S128x70x70, .f32⟩
  | 67 => ⟨S128x70x70, .f32⟩
  | 68 => ⟨S128x70x70, .f32⟩
  | 69 => ⟨S_, .f32⟩
  | 70 => ⟨S128x70x70, .f32⟩
  | 71 => ⟨S_, .i32⟩
  | 72 => ⟨S128x70x70, .i32⟩
  | 73 => ⟨S128x70x70, .i1⟩
  | 74 => ⟨S128x70x70, .f32⟩
  | 75 => ⟨S_, .i32⟩
  | 76 => ⟨S128x70x70, .i32⟩
  | 77 => ⟨S128x70x70, .i1⟩
  | 78 => ⟨S128x70x70, .f32⟩
  | 79 => ⟨S_, .i32⟩
  | 80 => ⟨S128x70x70, .i32⟩
  | 81 => ⟨S128x70x70, .i1⟩
  | 82 => ⟨S128x70x70, .f32⟩
  | 83 => ⟨S_, .i32⟩
  | 84 => ⟨S128x70x70, .i32⟩
  | 85 => ⟨S128x70x70, .i1⟩
  | 86 => ⟨S128x70x70, .f32⟩
  | 87 => ⟨S_, .f32⟩
  | 88 => ⟨S128x70, .f32⟩
  | 89 => ⟨S_, .f32⟩
  | 90 => ⟨S128x70, .f32⟩
  | 91 => ⟨S128x70, .f32⟩
  | 92 => ⟨S128x70x1, .f32⟩
  | 93 => ⟨S128x70x70, .f32⟩
  | 94 => ⟨S128x70x70, .f32⟩
  | 95 => ⟨S128x70x70, .f32⟩
  | 96 => ⟨S_, .f32⟩
  | 97 => ⟨S128x70, .f32⟩
  | 98 => ⟨S128x70x1, .f32⟩
  | 99 => ⟨S128x70x70, .f32⟩
  | 100 => ⟨S128x70x70, .f32⟩
  | 101 => ⟨S128x70x100, .f32⟩
  | 102 => ⟨S640000x1, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x100, .f32⟩
  | 112 => ⟨S640000x100, .f32⟩
  | 113 => ⟨S640000x100, .f32⟩
  | 114 => ⟨S_, .f32⟩
  | 115 => ⟨S40000x100, .f32⟩
  | 116 => ⟨S640000x1, .i32⟩
  | 117 => ⟨S40000x100, .f32⟩
  | 118 => ⟨S40000x100, .f32⟩
  | 119 => ⟨S640000x1, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S128x70, .i32⟩

abbrev hbmTy0_1 (i : Nat) : BufTy := match i % 128 with
  | 0 => ⟨S640000x100, .f32⟩
  | 1 => ⟨S640000x100, .f32⟩
  | 2 => ⟨S640000x100, .f32⟩
  | 3 => ⟨S_, .f32⟩
  | 4 => ⟨S40000x100, .f32⟩
  | 5 => ⟨S640000x1, .i32⟩
  | 6 => ⟨S40000x100, .f32⟩
  | 7 => ⟨S40000x100, .f32⟩
  | 8 => ⟨S_, .f32⟩
  | 9 => ⟨S40000x100, .f32⟩
  | 10 => ⟨S40000x100, .f32⟩
  | 11 => ⟨S_, .f32⟩
  | 12 => ⟨S1x100, .f32⟩
  | 13 => ⟨S40001x100, .f32⟩
  | 14 => ⟨S_, .i32⟩
  | 15 => ⟨S128x70, .i32⟩
  | 16 => ⟨S128x70, .i1⟩
  | 17 => ⟨S_, .i32⟩
  | 18 => ⟨S128x70, .i32⟩
  | 19 => ⟨S128x70, .i32⟩
  | 20 => ⟨S128x70, .i32⟩
  | 21 => ⟨S128x70x1, .i32⟩
  | 22 => ⟨S128x70x100, .f32⟩
  | 23 => ⟨S_, .f32⟩
  | 24 => ⟨S128x100, .f32⟩
  | 25 => ⟨S128x100, .f32⟩
  | 26 => ⟨S128x100, .f32⟩
  | 27 => ⟨S128x128, .f32⟩
  | 28 => ⟨S128x100, .f32⟩
  | 29 => ⟨S128x100, .f32⟩
  | 30 => ⟨S128x100, .f32⟩
  | 31 => ⟨S128x100, .f32⟩
  | 32 => ⟨S_, .f32⟩
  | 33 => ⟨S128x100, .f32⟩
  | 34 => ⟨S128x100, .f32⟩
  | 35 => ⟨S_, .f32⟩
  | 36 => ⟨S1x100, .f32⟩
  | 37 => ⟨S40001x100, .f32⟩
  | 38 => ⟨S_, .i32⟩
  | 39 => ⟨S128x70, .i32⟩
  | 40 => ⟨S128x70, .i1⟩
  | 41 => ⟨S_, .i32⟩
  | 42 => ⟨S128x70, .i32⟩
  | 43 => ⟨S128x70, .i32⟩
  | 44 => ⟨S128x70, .i32⟩
  | 45 => ⟨S128x70x1, .i32⟩
  | 46 => ⟨S128x70x100, .f32⟩
  | 47 => ⟨S128x70x100, .f32⟩
  | _ => ⟨S128x70, .i32⟩

abbrev hbmTy (i : Nat) : BufTy := match i / 128 with
  | 0 => hbmTy0_0 i
  | 1 => hbmTy0_1 i
  | _ => ⟨S128x70, .i32⟩

abbrev bufTy : (tb : Table) → Fin (tcTables nBuf tb) → BufTy
  | .hbm, ⟨i, _⟩ => hbmTy i
  | _, _ => ⟨S128x70, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_cst_14 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_19 : Ref sig .tc := ⟨.hbm, 120, rfl⟩
abbrev main_v83 : Ref sig .tc := ⟨.hbm, 121, rfl⟩
abbrev main_v84 : Ref sig .tc := ⟨.hbm, 122, rfl⟩
abbrev main_c_20 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_22 : Ref sig .tc := ⟨.hbm, 136, rfl⟩
abbrev main_v96 : Ref sig .tc := ⟨.hbm, 137, rfl⟩
abbrev main_v97 : Ref sig .tc := ⟨.hbm, 138, rfl⟩
abbrev main_cst_23 : Ref sig .tc := ⟨.hbm, 139, rfl⟩
abbrev main_v98 : Ref sig .tc := ⟨.hbm, 140, rfl⟩
abbrev main_v99 : Ref sig .tc := ⟨.hbm, 141, rfl⟩
abbrev main_c_24 : Ref sig .tc := ⟨.hbm, 142, rfl⟩
abbrev main_v100 : Ref sig .tc := ⟨.hbm, 143, rfl⟩
abbrev main_v101 : Ref sig .tc := ⟨.hbm, 144, rfl⟩
abbrev main_c_25 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_26 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_27 : Ref sig .tc := ⟨.hbm, 160, rfl⟩
abbrev main_v115 : Ref sig .tc := ⟨.hbm, 161, rfl⟩
abbrev main_v116 : Ref sig .tc := ⟨.hbm, 162, rfl⟩
abbrev main_cst_28 : Ref sig .tc := ⟨.hbm, 163, rfl⟩
abbrev main_v117 : Ref sig .tc := ⟨.hbm, 164, rfl⟩
abbrev main_v118 : Ref sig .tc := ⟨.hbm, 165, rfl⟩
abbrev main_c_29 : Ref sig .tc := ⟨.hbm, 166, rfl⟩
abbrev main_v119 : Ref sig .tc := ⟨.hbm, 167, rfl⟩
abbrev main_v120 : Ref sig .tc := ⟨.hbm, 168, rfl⟩
abbrev main_c_30 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩

abbrev nD : Nat := 1
abbrev τ : Topo := Topo.v7x

variable {F : FTy → Type} [FloatOps F]

class Facts₀ : Prop where
  bcast_S_S128x70 : S_.BroadcastsInDim S128x70 (![] : Fin 0 → Fin S128x70.rank)
  bcast_S128x70_S128x70x1_0_1 : S128x70.BroadcastsInDim S128x70x1 (![0, 1] : Fin 2 → Fin S128x70x1.rank)
  bcast_S100_S1x1x100_2 : S100.BroadcastsInDim S1x1x100 (![2] : Fin 1 → Fin S1x1x100.rank)
  bcast_S1x1x100_S128x70x100_0_1_2 : S1x1x100.BroadcastsInDim S128x70x100 (![0, 1, 2] : Fin 3 → Fin S128x70x100.rank)
  bcast_S_S128x70x70 : S_.BroadcastsInDim S128x70x70 (![] : Fin 0 → Fin S128x70x70.rank)
  reducesTo_S128x70x70_S128x70_d2 : S128x70x70.ReducesTo [2] S128x70
  h_S_ : 0 < S_.numel
  bcast_S128x70x1_S128x70x70_0_1_2 : S128x70x1.BroadcastsInDim S128x70x70 (![0, 1, 2] : Fin 3 → Fin S128x70x70.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x100_0_1 : S640000x1.BroadcastsInDim S640000x100 (![0, 1] : Fin 2 → Fin S640000x100.rank)
  bcast_S_S40000x100 : S_.BroadcastsInDim S40000x100 (![] : Fin 0 → Fin S40000x100.rank)
  bcast_S_S1x100 : S_.BroadcastsInDim S1x100 (![] : Fin 0 → Fin S1x100.rank)
  concatenates_S1x100_S40000x100_S40001x100_d0 : Shape.Concatenates [S1x100, S40000x100] S40001x100 0
  reducesTo_S128x70x100_S128x100_d1 : S128x70x100.ReducesTo [1] S128x100
  bcast_S128x1_S128x100_0_1 : S128x1.BroadcastsInDim S128x100 (![0, 1] : Fin 2 → Fin S128x100.rank)
  bcast_S_S128x100 : S_.BroadcastsInDim S128x100 (![] : Fin 0 → Fin S128x100.rank)
  gather_S40000x100_S128x70x1_S128x70x100_2_0_n_n_0_2_1100_wf : GatherDims.WF S40000x100 S128x70x1 S128x70x100 [2] [0] [] [0] [] 2 ![1, 100]
  dot_S128x70x100_S128x70x100_S128x70x70_2_2_1_1_0_0_wf : DotDims.WF S128x70x100 S128x70x100 S128x70x70 [2] [2] [1] [1] [0] [0]
  dot_S128x70x70_S128x70x100_S128x70x100_2_1_1_2_0_0_wf : DotDims.WF S128x70x70 S128x70x100 S128x70x100 [2] [1] [1] [2] [0] [0]
  gather_S40000x100_S640000x1_S640000x100_1_0_n_n_0_1_1100_wf : GatherDims.WF S40000x100 S640000x1 S640000x100 [1] [0] [] [0] [] 1 ![1, 100]
  scatter_S40000x100_S640000x1_S640000x100_1_0_0_1_wf : ScatterDims.WF S40000x100 S640000x1 S640000x100 [1] [0] [0] 1
  gather_S40001x100_S128x70x1_S128x70x100_2_0_n_n_0_2_1100_wf : GatherDims.WF S40001x100 S128x70x1 S128x70x100 [2] [0] [] [0] [] 2 ![1, 100]
  dot_S128x128_S128x128_S128x128_1_0_0_1_n_n_wf : DotDims.WF S128x128 S128x128 S128x128 [1] [0] [0] [1] [] []
  dot_S128x128_S128x100_S128x100_1_0_0_1_n_n_wf : DotDims.WF S128x128 S128x100 S128x100 [1] [0] [0] [1] [] []

variable [Facts₀]

def gather_S40000x100_S128x70x1_S128x70x100_2_0_n_n_0_2_1100 : GatherDims S40000x100 S128x70x1 S128x70x100 where
  offsetDims := [2]
  collapsedSliceDims := [0]
  operandBatchingDims := []
  startIndicesBatchingDims := []
  startIndexMap := [0]
  indexVectorDim := 2
  sliceSizes := ![1, 100]
  wf := gather_S40000x100_S128x70x1_S128x70x100_2_0_n_n_0_2_1100_wf
def dot_S128x70x100_S128x70x100_S128x70x70_2_2_1_1_0_0 : DotDims S128x70x100 S128x70x100 S128x70x70 where
  lhsContracting := [2]
  rhsContracting := [2]
  lhsNonContracting := [1]
  rhsNonContracting := [1]
  lhsBatch := [0]
  rhsBatch := [0]
  wf := dot_S128x70x100_S128x70x100_S128x70x70_2_2_1_1_0_0_wf
def dot_S128x70x70_S128x70x100_S128x70x100_2_1_1_2_0_0 : DotDims S128x70x70 S128x70x100 S128x70x100 where
  lhsContracting := [2]
  rhsContracting := [1]
  lhsNonContracting := [1]
  rhsNonContracting := [2]
  lhsBatch := [0]
  rhsBatch := [0]
  wf := dot_S128x70x70_S128x70x100_S128x70x100_2_1_1_2_0_0_wf
def gather_S40000x100_S640000x1_S640000x100_1_0_n_n_0_1_1100 : GatherDims S40000x100 S640000x1 S640000x100 where
  offsetDims := [1]
  collapsedSliceDims := [0]
  operandBatchingDims := []
  startIndicesBatchingDims := []
  startIndexMap := [0]
  indexVectorDim := 1
  sliceSizes := ![1, 100]
  wf := gather_S40000x100_S640000x1_S640000x100_1_0_n_n_0_1_1100_wf
def scatter_S40000x100_S640000x1_S640000x100_1_0_0_1 : ScatterDims S40000x100 S640000x1 S640000x100 where
  updateWindowDims := [1]
  insertedWindowDims := [0]
  scatterDimsToOperandDims := [0]
  indexVectorDim := 1
  wf := scatter_S40000x100_S640000x1_S640000x100_1_0_0_1_wf
def gather_S40001x100_S128x70x1_S128x70x100_2_0_n_n_0_2_1100 : GatherDims S40001x100 S128x70x1 S128x70x100 where
  offsetDims := [2]
  collapsedSliceDims := [0]
  operandBatchingDims := []
  startIndicesBatchingDims := []
  startIndexMap := [0]
  indexVectorDim := 2
  sliceSizes := ![1, 100]
  wf := gather_S40001x100_S128x70x1_S128x70x100_2_0_n_n_0_2_1100_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x100_S128x100_1_0_0_1_n_n : DotDims S128x128 S128x100 S128x100 where
  lhsContracting := [1]
  rhsContracting := [0]
  lhsNonContracting := [0]
  rhsNonContracting := [1]
  lhsBatch := []
  rhsBatch := []
  wf := dot_S128x128_S128x100_S128x100_1_0_0_1_n_n_wf

class Facts : Prop extends Facts₀ where

variable [Facts]
-- ==== Proof.KData.lean ====
import proofs.«130248_j9509057593869_1_alg».proof.Proof.Gen.Kernel.Launch
import proofs.«130248_j9509057593869_1_alg».proof.Proof.Gen.Kernel.Skeleton
import proofs.«130248_j9509057593869_1_alg».proof.Proof.Gen.Kernel.Points
import Idealize.ShloMosaic.Lib.Pipeline.FrameBody
import Idealize.ShloMosaic.Lib.Pipeline.RegionsLoop
import Idealize.ShloMosaic.Lib.Pipeline.FrameSuffix

/-!
# The two pipelines' proof data and the buffers' contents along the program

The program is: host operations, the attention pipeline (one point per session, 128 points), host operations, the
session-diffusion pipeline (one point). For each pipeline, at the contents `V` its region is entered with:
* a window's block at a point is the window's array read through the block (`iblk0`, `iblk1`);
* the body stores its one result whole, so the output's staging buffer after the body is that one piece
  (`out0_4`: the attention block of a session plus the residual block; `out1_3`: the diffused session embeddings);
* the proof data (`dat0`, `dat1`): inputs stay at their blocks, the output is the body's result of the input blocks.
Then the contents of every buffer at the five boundaries of the program (`W0` … `W4`): a stretch of host operations
is folded in, a pipeline replaces its output array by what its write-backs leave.
-/

noncomputable section

namespace Cert.Kernel.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

/-! ## The attention pipeline -/

/-- Window `w`'s block at point `t`: its array, as the region finds it, read through the block. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [1,70,100] block (the session's item embeddings, the residual block, the result). -/
abbrev rH : Rect S1x70x100 := Rect.unit (s := S1x70x100) ![0, 0, 0] S1x70x100.size inb_S1x70x100_S1x70x100_0_0_0
/-- The whole [1,70,70] block of relation labels. -/
abbrev rE : Rect S1x70x70 := Rect.unit (s := S1x70x70) ![0, 0, 0] S1x70x70.size inb_S1x70x70_S1x70x70_0_0_0
/-- The whole [4,100] stack of relation vectors. -/
abbrev rA : Rect S4x100 := Rect.unit (s := S4x100) ![0, 0] S4x100.size inb_S4x100_S4x100_0_0

/-- The attention body's result from its four loads: the value the one store writes. -/
def att0 (v0 : Vec F S1x70x100 .f32) (v2 : Vec F S1x70x70 .i32) (v4 : Vec F S4x100 .f32) (v6 : Vec F S1x70x100 .f32) : Vec F S1x70x100 .f32 :=
  k0_pay1 (k0_pay10 (k0_pay2 v0) (k0_pay3 v2) (k0_pay4 v4) (k0_pay5 v6) (k0_pay6 v0 v4) (k0_pay7 v0 v4) (k0_pay8 v0 v4) (k0_pay9 (F := F)))

/-- The output's staging buffer after the body, from the input blocks: the one store, covering the buffer. -/
def out0_4 (x0 : Vec F S1x70x100 .f32) (x1 : Vec F S1x70x70 .i32) (x2 : Vec F S4x100 .f32) (x3 : Vec F S1x70x100 .f32) : Vec F S1x70x100 .f32 :=
  View.canon [⟨rH, att0 (View.ld x0 rH) (View.ld x1 rE) (View.ld x2 rA) (View.ld x3 rH)⟩]

/-- The proof data of the attention pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## The session-diffusion pipeline -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole [128,128] matrix. -/
abbrev rD : Rect S128x128 := Rect.unit (s := S128x128) ![0, 0] S128x128.size inb_S128x128_S128x128_0_0
/-- The whole [128,100] matrix of session embeddings. -/
abbrev rS : Rect S128x100 := Rect.unit (s := S128x100) ![0, 0] S128x100.size inb_S128x100_S128x100_0_0

def out1_3 (x0 : Vec F S128x128 .f32) (x1 : Vec F S128x128 .f32) (x2 : Vec F S128x100 .f32) : Vec F S128x100 .f32 :=
  View.canon [⟨rS, k1_pay1 (View.ld x0 rD) (View.ld x1 rD) (View.ld x2 rS)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

/-! ## The buffers' contents at the five boundaries -/

/-- Core `c`'s buffers at launch. -/
abbrev W0 : Dev nD → Valuation τ sig (Elt F) := fun c b => (s₀ m ρ).mem ((c : Dev nD), b)
/-- After the first stretch of host operations (the attention pipeline's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the attention pipeline's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the session pipeline's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the session pipeline's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.Kernel.Frm

end
-- ==== Proof.KRun.lean ====
import proofs.«130248_j9509057593869_1_alg».proof.Proof.KData
import proofs.«130248_j9509057593869_1_alg».proof.Proof.Gen.Kernel.Regions
import Idealize.ShloMosaic.Lib.Ring
import Idealize.ShloMosaic.Lib.Tactic

/-!
# The run of the program, and the arguments at its end

The program is four segments in order: a stretch of host operations, the attention pipeline, a second stretch of host
operations, the session pipeline. Each segment is taken over one thread state — every unscoped buffer of the core held
whole at the contents of the boundary it starts from (`W0` … `W4`), beside the core's generator register and the
core owing nothing — so that each segment ends where the next begins. The two bodies' obligations are hypotheses here.

* `run_all`: every fair execution terminates, and at the end every unscoped buffer holds the last boundary's contents.
* `W4_main_argK`: walking the boundaries back, an argument's buffer holds at the end what it held at launch: no host
  operation has it as its result, and a pipeline either does not touch it or reads it through an input window.
* `frame`: the two together — every argument ends as launched.
-/

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- `main_arg0` is no window's array of either pipeline and no host operation's result: it ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` is the array of the attention pipeline's input window 1: an input's array is never written back, so the
    pipeline leaves it as entered; no host operation and no window of the session pipeline touches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

/-- `main_arg2` is no window's array of either pipeline and no host operation's result: it ends as launched. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` is no window's array of either pipeline and no host operation's result: it ends as launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` is no window's array of either pipeline and no host operation's result: it ends as launched. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` is the array of the session pipeline's input window 0: an input's array is never written back, so the
    pipeline leaves it as entered; no host operation and no window of the attention pipeline touches it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 0).trans (((dat1 (V3 m ρ) c).arrAt_in 0 rfl _).trans (A_eq1 (V3 m ρ) c 0))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` is the array of the session pipeline's input window 1: an input's array is never written back, so the
    pipeline leaves it as entered; no host operation and no window of the attention pipeline touches it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` is no window's array of either pipeline and no host operation's result: it ends as launched. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- `main_arg8` is no window's array of either pipeline and no host operation's result: it ends as launched. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- `main_arg9` is no window's array of either pipeline and no host operation's result: it ends as launched. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- `main_arg10` is no window's array of either pipeline and no host operation's result: it ends as launched. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- `main_arg11` is no window's array of either pipeline and no host operation's result: it ends as launched. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-- `main_arg12` is no window's array of either pipeline and no host operation's result: it ends as launched. -/
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-- `main_arg13` is no window's array of either pipeline and no host operation's result: it ends as launched. -/
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-- `main_arg14` is no window's array of either pipeline and no host operation's result: it ends as launched. -/
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-- `main_arg15` is no window's array of either pipeline and no host operation's result: it ends as launched. -/
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along: it
    ends with those buffers at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The pipelines as segments -/

set_option backward.isDefEq.respectTransparency.types false in
/-- The attention pipeline as a segment over the thread state: entered with every unscoped buffer at `W1`, left with
    them at `W2`. At entry its five arrays are split out of the unscoped buffers and the generator register goes into the
    pipeline's invariant; at exit the arrays, at what the write-backs leave, are put back beside the untouched rest, and
    the register comes back. The core owes nothing throughout, and the kernel has no semaphore of its own. -/
def reg0 (hb0 : ∀ c : Dev nD, Pipeline.BodyObligation (dat0 (F := F) (V1 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The session pipeline as a segment over the thread state: entered with every unscoped buffer at `W3`, left with them
    at `W4` beside the core owing nothing — the last thread state of the run. The routing of the arrays, of the rest and
    of the generator register is the attention pipeline's. -/
def reg1 (hb1 : ∀ c : Dev nD, Pipeline.BodyObligation (dat1 (F := F) (V3 m ρ) c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The program's four segments in order. -/
abbrev segs (hb0 : ∀ c : Dev nD, Pipeline.BodyObligation (dat0 (F := F) (V1 m ρ) c) (defs₀ (F := F)) Variants.none () Set.univ)
    (hb1 : ∀ c : Dev nD, Pipeline.BodyObligation (dat1 (F := F) (V3 m ρ) c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]

set_option backward.isDefEq.respectTransparency.types false in
/-- Every unscoped buffer ends at the last boundary's contents: from any memory with every counter at zero, every fair
    execution of the program on the TensorCores terminates without fault, and in every final state each unscoped buffer
    of each core holds `W4`. The program is the run of its segments (it is the chain of the same four items); the states
    chain by reflexivity; the first is made from what the launch deals; the last is read against the final state. -/
theorem run_all (hb0 : ∀ c : Dev nD, Pipeline.BodyObligation (dat0 (F := F) (V1 m ρ) c) (defs₀ (F := F)) Variants.none () Set.univ)
    (hb1 : ∀ c : Dev nD, Pipeline.BodyObligation (dat1 (F := F) (V3 m ρ) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by
      rewrite [main_chain c, Pipeline.Seg.run_eq_chain,
        show (segs m ρ hb0 hb1).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- Every argument ends as launched: each argument's buffer is unscoped, so `run_all` reads it at the last boundary's
    contents, which are the launch contents (`W4_main_argK`). -/
theorem frame (hb0 : ∀ c : Dev nD, Pipeline.BodyObligation (dat0 (F := F) (V1 m ρ) c) (defs₀ (F := F)) Variants.none () Set.univ)
    (hb1 : ∀ c : Dev nD, Pipeline.BodyObligation (dat1 (F := F) (V3 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c)⟩)
    (run_all m ρ hb0 hb1)

end Cert.Kernel.Frm

end
-- ==== Proof.KBody0.lean ====
import proofs.«130248_j9509057593869_1_alg».proof.Proof.KData
import Idealize.ShloMosaic.Lib.Tactic
import Idealize.ShloMosaic.Lib.Ring

/-!
# The attention pipeline's body

The body, called on whole staging buffers holding its four input blocks, leaves the inputs as they were and the
output's buffer at the one piece its single store writes (`out0_4`). Every input's current staging buffer holds its
block at every point of the grid — the relation stack, whose block never moves, is fetched at the first point only
and still holds its block at every later one —; so the body meets the pipeline's obligation for the proof data `dat0`.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input's buffer -/

/-- An input window's current staging buffer holds its block at every point, fetched there or not, for any proof
    data whose array is `V`'s and whose body leaves the block in place: the window is uncut and never idle, and
    where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The one store covers the output's buffer -/

/-- The store's rectangle is the whole [1,70,100] buffer, so it covers it. -/
theorem cover0_4 (p0 : Vec F S1x70x100 .f32) (y : S1x70x100.Idx) :
    ∃ pc ∈ ([⟨rH, p0⟩] : List (View.Piece (Elt F) S1x70x100 .f32)), y ∈ pc.1.set :=
  View.cover_of_tiled [⟨rH, p0⟩] S1x70x100.size (by rfl) y

/-! ## The body's triple -/

set_option maxHeartbeats 400000 in
/-- The body on whole staging buffers, the inputs' reading `x0` … `x3` and the output's holding anything, runs to the
    continuation with the inputs' as they were and the output's reading `out0_4 x0 x1 x2 x3`: the first part loads
    the four inputs, the second loads the output (the value is not used) and computes the attention block plus the
    residual block, and the one store writes it over the whole buffer. -/
theorem sound_kernel0 (c : Dev nD) (E : Set ℕ) (i : grid0.Coords)
    (arg0 : Memref sig .tc .vmem S1x70x100 .f32) (harg0 : arg0.IsWhole) (arg1 : Memref sig .tc .vmem S1x70x70 .i32) (harg1 : arg1.IsWhole)
    (arg2 : Memref sig .tc .vmem S4x100 .f32) (harg2 : arg2.IsWhole) (arg3 : Memref sig .tc .vmem S1x70x100 .f32) (harg3 : arg3.IsWhole)
    (arg4 : Memref sig .tc .vmem S1x70x100 .f32) (harg4 : arg4.IsWhole)
    (x0 : Vec F S1x70x100 .f32) (x1 : Vec F S1x70x70 .i32) (x2 : Vec F S4x100 .f32) (x3 : Vec F S1x70x100 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E
          (cc0__gat_kernel i arg0 harg0 arg1 harg1 arg2 harg2 arg3 harg3 arg4 harg4) K := by
  simp only [cc0__gat_kernel_eq_skeleton]; unfold cc0__gat_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

end Cert.Kernel.Frm

end
-- ==== Proof.KBody1.lean ====
import proofs.«130248_j9509057593869_1_alg».proof.Proof.KData
import Idealize.ShloMosaic.Lib.Tactic
import Idealize.ShloMosaic.Lib.Ring

/-!
# The session-diffusion pipeline's body

The body, called on whole staging buffers holding its three input blocks, leaves the inputs as they were and the
output's buffer at the one piece its single store writes (`out1_3`). Every input's current staging buffer holds its
block at the one point of the grid; so the body meets the pipeline's obligation for the proof data `dat1`.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input's buffer -/

/-- An input window's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The one store covers the output's buffer -/

/-- The store's rectangle is the whole [128,100] buffer, so it covers it. -/
theorem cover1_3 (p0 : Vec F S128x100 .f32) (y : S128x100.Idx) :
    ∃ pc ∈ ([⟨rS, p0⟩] : List (View.Piece (Elt F) S128x100 .f32)), y ∈ pc.1.set :=
  View.cover_of_tiled [⟨rS, p0⟩] S128x100.size (by rfl) y

/-! ## The body's triple -/

set_option maxHeartbeats 400000 in
/-- The body on whole staging buffers, the inputs' reading `x0`, `x1`, `x2` and the output's holding anything, runs
    to the continuation with the inputs' as they were and the output's reading `out1_3 x0 x1 x2`: three loads of the
    inputs, one load of the output whose value is not used, and the one store over the whole buffer. -/
theorem sound_kernel1 (c : Dev nD) (E : Set ℕ) (i : grid1.Coords)
    (arg0 : Memref sig .tc .vmem S128x128 .f32) (harg0 : arg0.IsWhole) (arg1 : Memref sig .tc .vmem S128x128 .f32) (harg1 : arg1.IsWhole)
    (arg2 : Memref sig .tc .vmem S128x100 .f32) (harg2 : arg2.IsWhole) (arg3 : Memref sig .tc .vmem S128x100 .f32) (harg3 : arg3.IsWhole)
    (x0 : Vec F S128x128 .f32) (x1 : Vec F S128x128 .f32) (x2 : Vec F S128x100 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__session_kernel i arg0 harg0 arg1 harg1 arg2 harg2 arg3 harg3) K := by
  simp only [cc1__session_kernel_eq_skeleton]; unfold cc1__session_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.Kernel.Frm

end
-- ==== Proof.KIData.lean ====
import proofs.«130248_j9509057593869_1_alg».proof.Proof.Gen.KernelIdeal.Launch
import proofs.«130248_j9509057593869_1_alg».proof.Proof.Gen.KernelIdeal.Skeleton
import proofs.«130248_j9509057593869_1_alg».proof.Proof.Gen.KernelIdeal.Points
import Idealize.ShloMosaic.Lib.Pipeline.FrameBody
import Idealize.ShloMosaic.Lib.Pipeline.RegionsLoop
import Idealize.ShloMosaic.Lib.Pipeline.FrameSuffix

/-!
# The two pipelines' proof data and the buffers' contents along the program

The program is: host operations, the attention pipeline (one point per session, 128 points), host operations, the
session-diffusion pipeline (one point). For each pipeline, at the contents `V` its region is entered with:
* a window's block at a point is the window's array read through the block (`iblk0`, `iblk1`);
* the body stores its one result whole, so the output's staging buffer after the body is that one piece
  (`out0_4`: the attention block of a session plus the residual block; `out1_3`: the diffused session embeddings);
* the proof data (`dat0`, `dat1`): inputs stay at their blocks, the output is the body's result of the input blocks.
Then the contents of every buffer at the five boundaries of the program (`W0` … `W4`): a stretch of host operations
is folded in, a pipeline replaces its output array by what its write-backs leave.
-/

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

/-! ## The attention pipeline -/

/-- Window `w`'s block at point `t`: its array, as the region finds it, read through the block. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [1,70,100] block (the session's item embeddings, the residual block, the result). -/
abbrev rH : Rect S1x70x100 := Rect.unit (s := S1x70x100) ![0, 0, 0] S1x70x100.size inb_S1x70x100_S1x70x100_0_0_0
/-- The whole [1,70,70] block of relation labels. -/
abbrev rE : Rect S1x70x70 := Rect.unit (s := S1x70x70) ![0, 0, 0] S1x70x70.size inb_S1x70x70_S1x70x70_0_0_0
/-- The whole [4,100] stack of relation vectors. -/
abbrev rA : Rect S4x100 := Rect.unit (s := S4x100) ![0, 0] S4x100.size inb_S4x100_S4x100_0_0

/-- The attention body's result from its four loads: the value the one store writes. -/
def att0 (v0 : Vec F S1x70x100 .f32) (v2 : Vec F S1x70x70 .i32) (v4 : Vec F S4x100 .f32) (v6 : Vec F S1x70x100 .f32) : Vec F S1x70x100 .f32 :=
  k0_pay1 (k0_pay10 (k0_pay2 v0) (k0_pay3 v2) (k0_pay4 v4) (k0_pay5 v6) (k0_pay6 v0 v4) (k0_pay7 v0 v4) (k0_pay8 v0 v4) (k0_pay9 (F := F)))

/-- The output's staging buffer after the body, from the input blocks: the one store, covering the buffer. -/
def out0_4 (x0 : Vec F S1x70x100 .f32) (x1 : Vec F S1x70x70 .i32) (x2 : Vec F S4x100 .f32) (x3 : Vec F S1x70x100 .f32) : Vec F S1x70x100 .f32 :=
  View.canon [⟨rH, att0 (View.ld x0 rH) (View.ld x1 rE) (View.ld x2 rA) (View.ld x3 rH)⟩]

/-- The proof data of the attention pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## The session-diffusion pipeline -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole [128,128] matrix. -/
abbrev rD : Rect S128x128 := Rect.unit (s := S128x128) ![0, 0] S128x128.size inb_S128x128_S128x128_0_0
/-- The whole [128,100] matrix of session embeddings. -/
abbrev rS : Rect S128x100 := Rect.unit (s := S128x100) ![0, 0] S128x100.size inb_S128x100_S128x100_0_0

def out1_3 (x0 : Vec F S128x128 .f32) (x1 : Vec F S128x128 .f32) (x2 : Vec F S128x100 .f32) : Vec F S128x100 .f32 :=
  View.canon [⟨rS, k1_pay1 (View.ld x0 rD) (View.ld x1 rD) (View.ld x2 rS)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

/-! ## The buffers' contents at the five boundaries -/

/-- Core `c`'s buffers at launch. -/
abbrev W0 : Dev nD → Valuation τ sig (Elt F) := fun c b => (s₀ m ρ).mem ((c : Dev nD), b)
/-- After the first stretch of host operations (the attention pipeline's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the attention pipeline's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the session pipeline's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the session pipeline's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.KernelIdeal.Frm

end
-- ==== Proof.KIRun.lean ====
import proofs.«130248_j9509057593869_1_alg».proof.Proof.KIData
import proofs.«130248_j9509057593869_1_alg».proof.Proof.Gen.KernelIdeal.Regions
import Idealize.ShloMosaic.Lib.Ring
import Idealize.ShloMosaic.Lib.Tactic

/-!
# The run of the program, and the arguments at its end

The program is four segments in order: a stretch of host operations, the attention pipeline, a second stretch of host
operations, the session pipeline. Each segment is taken over one thread state — every unscoped buffer of the core held
whole at the contents of the boundary it starts from (`W0` … `W4`), beside the core's generator register and the
core owing nothing — so that each segment ends where the next begins. The two bodies' obligations are hypotheses here.

* `run_all`: every fair execution terminates, and at the end every unscoped buffer holds the last boundary's contents.
* `W4_main_argK`: walking the boundaries back, an argument's buffer holds at the end what it held at launch: no host
  operation has it as its result, and a pipeline either does not touch it or reads it through an input window.
* `frame`: the two together — every argument ends as launched.
-/

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- `main_arg0` is no window's array of either pipeline and no host operation's result: it ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` is the array of the attention pipeline's input window 1: an input's array is never written back, so the
    pipeline leaves it as entered; no host operation and no window of the session pipeline touches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

/-- `main_arg2` is no window's array of either pipeline and no host operation's result: it ends as launched. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` is no window's array of either pipeline and no host operation's result: it ends as launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` is no window's array of either pipeline and no host operation's result: it ends as launched. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` is the array of the session pipeline's input window 0: an input's array is never written back, so the
    pipeline leaves it as entered; no host operation and no window of the attention pipeline touches it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 0).trans (((dat1 (V3 m ρ) c).arrAt_in 0 rfl _).trans (A_eq1 (V3 m ρ) c 0))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` is the array of the session pipeline's input window 1: an input's array is never written back, so the
    pipeline leaves it as entered; no host operation and no window of the attention pipeline touches it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` is no window's array of either pipeline and no host operation's result: it ends as launched. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- `main_arg8` is no window's array of either pipeline and no host operation's result: it ends as launched. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- `main_arg9` is no window's array of either pipeline and no host operation's result: it ends as launched. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- `main_arg10` is no window's array of either pipeline and no host operation's result: it ends as launched. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- `main_arg11` is no window's array of either pipeline and no host operation's result: it ends as launched. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-- `main_arg12` is no window's array of either pipeline and no host operation's result: it ends as launched. -/
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-- `main_arg13` is no window's array of either pipeline and no host operation's result: it ends as launched. -/
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-- `main_arg14` is no window's array of either pipeline and no host operation's result: it ends as launched. -/
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-- `main_arg15` is no window's array of either pipeline and no host operation's result: it ends as launched. -/
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along: it
    ends with those buffers at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The pipelines as segments -/

set_option backward.isDefEq.respectTransparency.types false in
/-- The attention pipeline as a segment over the thread state: entered with every unscoped buffer at `W1`, left with
    them at `W2`. At entry its five arrays are split out of the unscoped buffers and the generator register goes into the
    pipeline's invariant; at exit the arrays, at what the write-backs leave, are put back beside the untouched rest, and
    the register comes back. The core owes nothing throughout, and the kernel has no semaphore of its own. -/
def reg0 (hb0 : ∀ c : Dev nD, Pipeline.BodyObligation (dat0 (F := F) (V1 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The session pipeline as a segment over the thread state: entered with every unscoped buffer at `W3`, left with them
    at `W4` beside the core owing nothing — the last thread state of the run. The routing of the arrays, of the rest and
    of the generator register is the attention pipeline's. -/
def reg1 (hb1 : ∀ c : Dev nD, Pipeline.BodyObligation (dat1 (F := F) (V3 m ρ) c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The program's four segments in order. -/
abbrev segs (hb0 : ∀ c : Dev nD, Pipeline.BodyObligation (dat0 (F := F) (V1 m ρ) c) (defs₀ (F := F)) Variants.none () Set.univ)
    (hb1 : ∀ c : Dev nD, Pipeline.BodyObligation (dat1 (F := F) (V3 m ρ) c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]

set_option backward.isDefEq.respectTransparency.types false in
/-- Every unscoped buffer ends at the last boundary's contents: from any memory with every counter at zero, every fair
    execution of the program on the TensorCores terminates without fault, and in every final state each unscoped buffer
    of each core holds `W4`. The program is the run of its segments (it is the chain of the same four items); the states
    chain by reflexivity; the first is made from what the launch deals; the last is read against the final state. -/
theorem run_all (hb0 : ∀ c : Dev nD, Pipeline.BodyObligation (dat0 (F := F) (V1 m ρ) c) (defs₀ (F := F)) Variants.none () Set.univ)
    (hb1 : ∀ c : Dev nD, Pipeline.BodyObligation (dat1 (F := F) (V3 m ρ) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by
      rewrite [main_chain c, Pipeline.Seg.run_eq_chain,
        show (segs m ρ hb0 hb1).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- Every argument ends as launched: each argument's buffer is unscoped, so `run_all` reads it at the last boundary's
    contents, which are the launch contents (`W4_main_argK`). -/
theorem frame (hb0 : ∀ c : Dev nD, Pipeline.BodyObligation (dat0 (F := F) (V1 m ρ) c) (defs₀ (F := F)) Variants.none () Set.univ)
    (hb1 : ∀ c : Dev nD, Pipeline.BodyObligation (dat1 (F := F) (V3 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c)⟩)
    (run_all m ρ hb0 hb1)

end Cert.KernelIdeal.Frm

end
-- ==== Proof.KIBody0.lean ====
import proofs.«130248_j9509057593869_1_alg».proof.Proof.KIData
import Idealize.ShloMosaic.Lib.Tactic
import Idealize.ShloMosaic.Lib.Ring

/-!
# The attention pipeline's body

The body, called on whole staging buffers holding its four input blocks, leaves the inputs as they were and the
output's buffer at the one piece its single store writes (`out0_4`). Every input's current staging buffer holds its
block at every point of the grid — the relation stack, whose block never moves, is fetched at the first point only
and still holds its block at every later one —; so the body meets the pipeline's obligation for the proof data `dat0`.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input's buffer -/

/-- An input window's current staging buffer holds its block at every point, fetched there or not, for any proof
    data whose array is `V`'s and whose body leaves the block in place: the window is uncut and never idle, and
    where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The one store covers the output's buffer -/

/-- The store's rectangle is the whole [1,70,100] buffer, so it covers it. -/
theorem cover0_4 (p0 : Vec F S1x70x100 .f32) (y : S1x70x100.Idx) :
    ∃ pc ∈ ([⟨rH, p0⟩] : List (View.Piece (Elt F) S1x70x100 .f32)), y ∈ pc.1.set :=
  View.cover_of_tiled [⟨rH, p0⟩] S1x70x100.size (by rfl) y

/-! ## The body's triple -/

set_option maxHeartbeats 400000 in
/-- The body on whole staging buffers, the inputs' reading `x0` … `x3` and the output's holding anything, runs to the
    continuation with the inputs' as they were and the output's reading `out0_4 x0 x1 x2 x3`: the first part loads
    the four inputs, the second loads the output (the value is not used) and computes the attention block plus the
    residual block, and the one store writes it over the whole buffer. -/
theorem sound_kernel0 (c : Dev nD) (E : Set ℕ) (i : grid0.Coords)
    (arg0 : Memref sig .tc .vmem S1x70x100 .f32) (harg0 : arg0.IsWhole) (arg1 : Memref sig .tc .vmem S1x70x70 .i32) (harg1 : arg1.IsWhole)
    (arg2 : Memref sig .tc .vmem S4x100 .f32) (harg2 : arg2.IsWhole) (arg3 : Memref sig .tc .vmem S1x70x100 .f32) (harg3 : arg3.IsWhole)
    (arg4 : Memref sig .tc .vmem S1x70x100 .f32) (harg4 : arg4.IsWhole)
    (x0 : Vec F S1x70x100 .f32) (x1 : Vec F S1x70x70 .i32) (x2 : Vec F S4x100 .f32) (x3 : Vec F S1x70x100 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E
          (cc0__gat_kernel i arg0 harg0 arg1 harg1 arg2 harg2 arg3 harg3 arg4 harg4) K := by
  simp only [cc0__gat_kernel_eq_skeleton]; unfold cc0__gat_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

end Cert.KernelIdeal.Frm

end
-- ==== Proof.KIBody1.lean ====
import proofs.«130248_j9509057593869_1_alg».proof.Proof.KIData
import Idealize.ShloMosaic.Lib.Tactic
import Idealize.ShloMosaic.Lib.Ring

/-!
# The session-diffusion pipeline's body

The body, called on whole staging buffers holding its three input blocks, leaves the inputs as they were and the
output's buffer at the one piece its single store writes (`out1_3`). Every input's current staging buffer holds its
block at the one point of the grid; so the body meets the pipeline's obligation for the proof data `dat1`.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input's buffer -/

/-- An input window's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The one store covers the output's buffer -/

/-- The store's rectangle is the whole [128,100] buffer, so it covers it. -/
theorem cover1_3 (p0 : Vec F S128x100 .f32) (y : S128x100.Idx) :
    ∃ pc ∈ ([⟨rS, p0⟩] : List (View.Piece (Elt F) S128x100 .f32)), y ∈ pc.1.set :=
  View.cover_of_tiled [⟨rS, p0⟩] S128x100.size (by rfl) y

/-! ## The body's triple -/

set_option maxHeartbeats 400000 in
/-- The body on whole staging buffers, the inputs' reading `x0`, `x1`, `x2` and the output's holding anything, runs
    to the continuation with the inputs' as they were and the output's reading `out1_3 x0 x1 x2`: three loads of the
    inputs, one load of the output whose value is not used, and the one store over the whole buffer. -/
theorem sound_kernel1 (c : Dev nD) (E : Set ℕ) (i : grid1.Coords)
    (arg0 : Memref sig .tc .vmem S128x128 .f32) (harg0 : arg0.IsWhole) (arg1 : Memref sig .tc .vmem S128x128 .f32) (harg1 : arg1.IsWhole)
    (arg2 : Memref sig .tc .vmem S128x100 .f32) (harg2 : arg2.IsWhole) (arg3 : Memref sig .tc .vmem S128x100 .f32) (harg3 : arg3.IsWhole)
    (x0 : Vec F S128x128 .f32) (x1 : Vec F S128x128 .f32) (x2 : Vec F S128x100 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__session_kernel i arg0 harg0 arg1 harg1 arg2 harg2 arg3 harg3) K := by
  simp only [cc1__session_kernel_eq_skeleton]; unfold cc1__session_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.KernelIdeal.Frm

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Spec.lean ====
import Idealize.ShloMosaic.PureOps.Ideal
import Idealize.ShloMosaic.Lib.ValueIdx

/-!
# What both programs compute, index by index, on the extended reals

Two results.

**Attention with a residual.**  For a session `b`, its items' embeddings `h b i ·` (70 items, 100 features), four
relation vectors `a₀ … a₃` and relation labels `edge b i j ∈ {0,…,4}`:
the raw score of relation `k` between items `i` and `j` is `∑_d (h b i d · a_k d) · h b j d`; it passes through the leaky
rectifier of slope 0.2; the logit of `(i, j)` is the rectified score of the relation the label names (label `k+1` names
`a_k`; a later label wins) and the large negative constant where the label names none; each row of logits is
turned into weights by the shifted exponential `exp (logit − row maximum)` divided by its row sum; the result at
`(b, i, d)` is `∑_j weight b i j · h b j d` plus the residual `seq b i d`.

**Two hops of diffusion.**  With `M = D · A` (128 × 128) and session embeddings `s` (128 × 100), the result is
`(s + M s + M (M s)) / 3`.

Every float literal is kept as its binary word, read by `Ideal.ofBits`; no law of the extended reals is used here.
-/

noncomputable section

namespace Cert.Spec

open Idealize.ShloMosaic Idealize.ShloMosaic.ValueIdx

/-- Item embeddings of every session, the residual, and the first result: [128, 70, 100]. -/
abbrev SH : Shape := ⟨3, ![128, 70, 100]⟩
/-- Relation labels: [128, 70, 70]. -/
abbrev SE : Shape := ⟨3, ![128, 70, 70]⟩
/-- A relation vector: [100]. -/
abbrev SA : Shape := ⟨1, ![100]⟩
/-- The two square factors: [128, 128]. -/
abbrev SD : Shape := ⟨2, ![128, 128]⟩
/-- Session embeddings and the second result: [128, 100]. -/
abbrev SS : Shape := ⟨2, ![128, 100]⟩

/-- The leaky rectifier: `x` where `x ≥ 0`, else `0.2 · x` (the slope as its f32 word). -/
def leaky (x : EReal) : EReal :=
  Scalar.select (Ideal.cmp .oge x (Ideal.ofBits .f32 0x00000000#32)) x (Ideal.ofBits .f32 0x3E4CCCCD#32 * x)

/-- The raw score of one relation vector between items `i` and `j` of session `b`. -/
def score (h : SH.Idx → EReal) (a : SA.Idx → EReal) (b : Fin 128) (i j : Fin 70) : EReal :=
  ∑ d : Fin 100, (h (ix3 b i d) * a (ix1 d)) * h (ix3 b j d)

/-- The logit of the pair `(i, j)`: the rectified score of the relation its label names, label 4 first. -/
def logit (h : SH.Idx → EReal) (edge : SE.Idx → BitVec 32) (a0 a1 a2 a3 : SA.Idx → EReal)
    (b : Fin 128) (i j : Fin 70) : EReal :=
  Scalar.select (IntOp.cmpi .eq (edge (ix3 b i j)) 4#32) (leaky (score h a3 b i j))
    (Scalar.select (IntOp.cmpi .eq (edge (ix3 b i j)) 3#32) (leaky (score h a2 b i j))
      (Scalar.select (IntOp.cmpi .eq (edge (ix3 b i j)) 2#32) (leaky (score h a1 b i j))
        (Scalar.select (IntOp.cmpi .eq (edge (ix3 b i j)) 1#32) (leaky (score h a0 b i j))
          (Ideal.ofBits .f32 0xD9FFCB9E#32))))

/-- The maximum of row `i`'s logits, folded from `−∞` (and once more compared with `−∞`). -/
def rowMax (h : SH.Idx → EReal) (edge : SE.Idx → BitVec 32) (a0 a1 a2 a3 : SA.Idx → EReal)
    (b : Fin 128) (i : Fin 70) : EReal :=
  max (Ideal.ofBits .f32 0xFF800000#32)
    ((Finset.univ : Finset (Fin 70)).fold max (Ideal.ofBits .f32 0xFF800000#32) (fun j => logit h edge a0 a1 a2 a3 b i j))

/-- The shifted exponential of a logit. -/
def expo (h : SH.Idx → EReal) (edge : SE.Idx → BitVec 32) (a0 a1 a2 a3 : SA.Idx → EReal)
    (b : Fin 128) (i j : Fin 70) : EReal :=
  Ideal.exp (logit h edge a0 a1 a2 a3 b i j - rowMax h edge a0 a1 a2 a3 b i)

/-- The attention weight of item `j` for item `i`. -/
def weight (h : SH.Idx → EReal) (edge : SE.Idx → BitVec 32) (a0 a1 a2 a3 : SA.Idx → EReal)
    (b : Fin 128) (i j : Fin 70) : EReal :=
  Ideal.div (expo h edge a0 a1 a2 a3 b i j) (∑ j' : Fin 70, expo h edge a0 a1 a2 a3 b i j')

/-- The first result at `(b, i, d)`: the weighted sum of the session's embeddings plus the residual. -/
def attAt (h : SH.Idx → EReal) (edge : SE.Idx → BitVec 32) (a0 a1 a2 a3 : SA.Idx → EReal) (seq : SH.Idx → EReal)
    (b : Fin 128) (i : Fin 70) (d : Fin 100) : EReal :=
  (∑ j : Fin 70, weight h edge a0 a1 a2 a3 b i j * h (ix3 b j d)) + seq (ix3 b i d)

/-- The first result as an array. -/
def att (h : SH.Idx → EReal) (edge : SE.Idx → BitVec 32) (a0 a1 a2 a3 : SA.Idx → EReal) (seq : SH.Idx → EReal) :
    SH.Idx → EReal :=
  fun x => attAt h edge a0 a1 a2 a3 seq (x 0) (x 1) (x 2)

theorem att_ix3 (h : SH.Idx → EReal) (edge : SE.Idx → BitVec 32) (a0 a1 a2 a3 : SA.Idx → EReal) (seq : SH.Idx → EReal)
    (b : Fin 128) (i : Fin 70) (d : Fin 100) :
    att h edge a0 a1 a2 a3 seq (ix3 b i d) = attAt h edge a0 a1 a2 a3 seq b i d := rfl

/-- The product `M = D · A` at `(p, q)`. -/
def prodDA (D A : SD.Idx → EReal) (p q : Fin 128) : EReal :=
  ∑ k : Fin 128, D (ix2 p k) * A (ix2 k q)

/-- One hop: `M s` at `(p, d)`. -/
def hop (D A : SD.Idx → EReal) (s : Fin 128 → Fin 100 → EReal) (p : Fin 128) (d : Fin 100) : EReal :=
  ∑ k : Fin 128, prodDA D A p k * s k d

/-- The second result at `(p, d)`: `(s + M s + M (M s)) / 3` (the divisor as its f32 word). -/
def sessAt (D A : SD.Idx → EReal) (s0 : SS.Idx → EReal) (p : Fin 128) (d : Fin 100) : EReal :=
  Ideal.div
    ((s0 (ix2 p d) + hop D A (fun k e => s0 (ix2 k e)) p d)
      + hop D A (hop D A (fun k e => s0 (ix2 k e))) p d)
    (Ideal.ofBits .f32 0x40400000#32)

/-- The second result as an array. -/
def sess (D A : SD.Idx → EReal) (s0 : SS.Idx → EReal) : SS.Idx → EReal :=
  fun x => sessAt D A s0 (x 0) (x 1)

theorem sess_ix2 (D A : SD.Idx → EReal) (s0 : SS.Idx → EReal) (p : Fin 128) (d : Fin 100) :
    sess D A s0 (ix2 p d) = sessAt D A s0 p d := rfl

end Cert.Spec

end
-- ==== Proof.AttLemmas.lean ====
import Idealize.ShloMosaic.Lib.ValueIdx
import Idealize.ShloMosaic.Lib.ValueLayout
import Idealize.ShloMosaic.Lib.Pipeline.Value
import Idealize.ShloMosaic.PureOps.Ideal.Laws
import proofs.«130248_j9509057593869_1_alg».proof.Proof.LibSoftplus
import proofs.«130248_j9509057593869_1_alg».proof.Proof.LibColumnLayout
import proofs.«130248_j9509057593869_1_alg».proof.Proof.Spec

/-!
# The attention block of one session, operation by operation, at the ideal values

Lemmas over arbitrary vectors of the block's shapes — `[70, 100]` embeddings, `[70, 70]` scores and labels, the
`[4, 100]` stack of relation vectors — reading each group of vector operations at an entry:
* a row of the stack, cut out, flattened, re-laid and repeated over the 70 items, is that row (`relRow_apply`);
* the product of the embeddings scaled by such a row with the embeddings' transpose is the relation's raw score
  (`score_apply`);
* the comparison with zero, the product with the slope and the selection are the leaky rectifier (`leaky_apply`);
* the four label tests select the logit (`logit_apply`);
* the row maximum as a fold (`rowMax_apply`), a row statistic repeated along its row (`col_apply`), the row sum
  (`rowSum_apply`);
* the product of the weights with the embeddings (`mix_apply`).
-/

noncomputable section

namespace Cert.AttLemmas

open Idealize.ShloMosaic Idealize.ShloMosaic.ValueIdx

abbrev T70x100 : Shape := ⟨2, ![70, 100]⟩
abbrev T100x70 : Shape := ⟨2, ![100, 70]⟩
abbrev T70x70 : Shape := ⟨2, ![70, 70]⟩
abbrev T4x100 : Shape := ⟨2, ![4, 100]⟩
abbrev T1x100 : Shape := ⟨2, ![1, 100]⟩
abbrev T100 : Shape := ⟨1, ![100]⟩
abbrev T70 : Shape := ⟨1, ![70]⟩
abbrev T70x1 : Shape := ⟨2, ![70, 1]⟩

/-- Row `k` of the stack, cut out as `[1, 100]`, flattened to `[100]`, re-laid as `[1, 100]` and repeated over the
    70 items, reads at `(i, d)` the stack at `(k, d)`. -/
theorem relRow_apply (k : Nat) (v5 : FVec Ideal T4x100 .f32) (hs : T4x100.Slices ![k, 0] T1x100)
    (h1 : T1x100.ShapeCasts T100) (h2 : T100.ShapeCasts T1x100) (hb : T1x100.Broadcasts T70x100)
    (kk : Fin 4) (hk : kk.val = k) (i : Fin 70) (d : Fin 100) :
    broadcastTo T70x100 (shapeCast T1x100 (shapeCast T100 (extractStridedSlice T1x100 ![k, 0] v5 hs) h1) h2) hb (ix2 i d)
      = v5 (ix2 kk d) := by
  rw [broadcastTo_1b_ab_apply, shapeCast_a_1a_apply, shapeCast_1a_a_apply,
    slice2_axis0_apply k v5 hs (0 : Fin 1) d kk (by rw [hk]; rfl)]

/-- The embeddings scaled entrywise by `R`, times the embeddings' transpose, into a zero accumulator: at `(i, j)` the
    sum over the features of `(v1 i d · R i d) · v1 j d`. -/
theorem score_apply (D : DotDims T70x100 T100x70 T70x70) (hD : D = DotDims.plain 70 100 70)
    (v1 R : FVec Ideal T70x100 .f32) (ht : T70x100.Transposes [1, 0] T100x70) (i j : Fin 70) :
    matmul D none (mulf v1 R) (transpose T100x70 [1, 0] v1 ht) (constant T70x70 .f32 0x00000000#32) (ix2 i j)
      = ∑ d : Fin 100, (v1 (ix2 i d) * R (ix2 i d)) * v1 (ix2 j d) := by
  rw [Cert.Lib.Softplus.matmul0_plain_apply D hD]
  refine Finset.sum_congr rfl fun d _ => ?_
  rw [transpose_ix2_apply]
  rfl

/-- Comparison with the zero word, product with the slope word, selection: the leaky rectifier of the entry. -/
theorem leaky_apply {s : Shape} (x : FVec Ideal s .f32) (i : s.Idx) :
    select (cmpf .oge x (broadcast s (Scalar.ofBits (F := Ideal) .f32 0x00000000#32))) x
      (mulf (broadcast s (Scalar.ofBits (F := Ideal) .f32 0x3E4CCCCD#32)) x) i = Cert.Spec.leaky (x i) := rfl

/-- The four label tests, the later one winning, over the large negative word. -/
theorem logit_apply {s : Shape} (lab : IVec s 32) (e0 e1 e2 e3 : FVec Ideal s .f32) (i : s.Idx) :
    select (cmpi .eq lab (broadcast s 4#32)) e3
      (select (cmpi .eq lab (broadcast s 3#32)) e2
        (select (cmpi .eq lab (broadcast s 2#32)) e1
          (select (cmpi .eq lab (broadcast s 1#32)) e0
            (broadcast s (Scalar.ofBits (F := Ideal) .f32 0xD9FFCB9E#32))))) i
      = Scalar.select (IntOp.cmpi .eq (lab i) 4#32) (e3 i)
          (Scalar.select (IntOp.cmpi .eq (lab i) 3#32) (e2 i)
            (Scalar.select (IntOp.cmpi .eq (lab i) 2#32) (e1 i)
              (Scalar.select (IntOp.cmpi .eq (lab i) 1#32) (e0 i) (Ideal.ofBits .f32 0xD9FFCB9E#32)))) := rfl

/-- The index of a `[70, 70]` array that drops to row `i` with column `k` put back. -/
theorem lift_row (hr : T70x70.Reduces [1] T70) (i : Fin 70) (k : Fin 70) : hr.lift (ix1 i) k = ix2 i k :=
  funext fun a => Fin.ext (by match a with | ⟨0, _⟩ => rfl | ⟨1, _⟩ => rfl)

/-- The row maximum: the reduction's fold from its accumulator word, compared once more with a splat of `−∞`. -/
theorem rowMax_apply (L : FVec Ideal T70x70 .f32) (hr : T70x70.Reduces [1] T70) (hφ : FKind.Formats .f32)
    (hacc : (0xFF800000#32 : BitVec 32) = FKind.maximumf.neutral .f32 hφ) (i : Fin 70) :
    maximumf (broadcast T70 (Scalar.ofBits (F := Ideal) .f32 0xFF800000#32))
        (multiReduction .maximumf [1] T70 L 0xFF800000#32 hr hφ hacc) (ix1 i)
      = max (Ideal.ofBits .f32 0xFF800000#32)
          ((Finset.univ : Finset (Fin 70)).fold max (Ideal.ofBits .f32 0xFF800000#32) (fun j => L (ix2 i j))) := by
  rw [maximumf_apply, Ideal.multiReduction_maximumf_single]
  refine congrArg (max _) ?_
  refine congrArg (fun f => (Finset.univ : Finset (Fin 70)).fold max (Ideal.ofBits .f32 0xFF800000#32) f) ?_
  funext j
  exact congrArg L (lift_row hr i j)

/-- A row statistic laid as a column and repeated along its row reads, at `(i, j)`, the statistic of row `i`. -/
theorem col_apply (r : FVec Ideal T70 .f32) (hc : T70.ShapeCasts T70x1) (hb : T70x1.Broadcasts T70x70) (i j : Fin 70) :
    broadcastTo T70x70 (shapeCast T70x1 r hc) hb (ix2 i j) = r (ix1 i) := by
  rw [PhysLoss.broadcastTo_a1_ab_apply, PhysLoss.shapeCast_a_a1_apply]

/-- The row sum into the zero word. -/
theorem rowSum_apply (E : FVec Ideal T70x70 .f32) (hr : T70x70.Reduces [1] T70) (hφ : FKind.Formats .f32)
    (hacc : (0x00000000#32 : BitVec 32) = FKind.add.neutral .f32 hφ) (i : Fin 70) :
    multiReduction .add [1] T70 E 0x00000000#32 hr hφ hacc (ix1 i) = ∑ j : Fin 70, E (ix2 i j) := by
  rw [Ideal.multiReduction_add_single]
  exact Finset.sum_congr rfl fun j _ => congrArg E (lift_row hr i j)

/-- The weights times the embeddings, into a zero accumulator. -/
theorem mix_apply (D : DotDims T70x70 T70x100 T70x100) (hD : D = DotDims.plain 70 70 100)
    (P : FVec Ideal T70x70 .f32) (v1 : FVec Ideal T70x100 .f32) (i : Fin 70) (d : Fin 100) :
    matmul D none P v1 (constant T70x100 .f32 0x00000000#32) (ix2 i d) = ∑ j : Fin 70, P (ix2 i j) * v1 (ix2 j d) :=
  Cert.Lib.Softplus.matmul0_plain_apply D hD none P v1 i d

end Cert.AttLemmas

end
-- ==== Proof.KIAtt.lean ====
import proofs.«130248_j9509057593869_1_alg».proof.Proof.KIData
import proofs.«130248_j9509057593869_1_alg».proof.Proof.AttLemmas
import proofs.«130248_j9509057593869_1_alg».proof.Proof.Spec
import Idealize.ShloMosaic.Lib.Pipeline.Value
import Idealize.ShloMosaic.Lib.ValueLayout

/-!
# The attention body at an entry

The body loads the session's embeddings block `v0` (`[1, 70, 100]`), its labels `v2` (`[1, 70, 70]`), the stack of the
four relation vectors `v4` (`[4, 100]`) and the residual block `v6`, and stores one `[1, 70, 100]` value. Whenever the
loaded blocks are session `b`'s slices of arrays `h`, `edge`, `seq` and the stack's rows are `a₀ … a₃`, the stored value
at `(·, i, d)` is the specification's first result at `(b, i, d)`: the scores, the rectifier, the label selection, the
row maximum, the shifted exponentials, their row sum, the weights and the weighted sum are read one after the other
by the lemmas on the block's vector operations.
-/

noncomputable section

namespace Cert.KernelIdeal.Val

open Idealize.ShloMosaic Idealize.ShloMosaic.ValueIdx
open Cert.KernelIdeal Cert.KernelIdeal.Gen Cert.KernelIdeal.Frm Cert.AttLemmas

theorem dotScore_plain : dot_S70x100_S100x70_S70x70_1_0_0_1_n_n = DotDims.plain 70 100 70 := rfl
theorem dotMix_plain : dot_S70x70_S70x100_S70x100_1_0_0_1_n_n = DotDims.plain 70 70 100 := rfl

section
variable (v0 : Vec Ideal S1x70x100 .f32) (v2 : Vec Ideal S1x70x70 .i32) (v4 : Vec Ideal S4x100 .f32) (v6 : Vec Ideal S1x70x100 .f32)
variable (h : Cert.Spec.SH.Idx → EReal) (edge : Cert.Spec.SE.Idx → BitVec 32) (a0 a1 a2 a3 : Cert.Spec.SA.Idx → EReal)
  (seq : Cert.Spec.SH.Idx → EReal) (b : Fin 128)

/-- The embeddings block as a `[70, 100]` matrix. -/
theorem pay2_apply (H0 : ∀ (i : Fin 70) (d : Fin 100), v0 (ix3 (0 : Fin 1) i d) = h (ix3 b i d)) (i : Fin 70) (d : Fin 100) :
    k0_pay2 v0 (ix2 i d) = h (ix3 b i d) :=
  (shapeCast_1ab_ab_apply v0 Facts₀.shapeCasts_S1x70x100_S70x100 i d).trans (H0 i d)

/-- The labels block as a `[70, 70]` matrix. -/
theorem pay3_apply (H2 : ∀ (i j : Fin 70), v2 (ix3 (0 : Fin 1) i j) = edge (ix3 b i j)) (i j : Fin 70) :
    k0_pay3 v2 (ix2 i j) = edge (ix3 b i j) :=
  (shapeCast_1ab_ab_apply v2 Facts₀.shapeCasts_S1x70x70_S70x70 i j).trans (H2 i j)

/-- The stack, cast to its own shape. -/
theorem pay4_eq : k0_pay4 v4 = v4 := shapeCast_self v4 Facts₀.shapeCasts_S4x100_S4x100

/-- The stored value is the `[70, 100]` result given a leading unit axis. -/
theorem pay1_apply (X : FVec Ideal S70x100 .f32) (u : Fin 1) (i : Fin 70) (d : Fin 100) :
    k0_pay1 X (ix3 u i d) = X (ix2 i d) :=
  shapeCast_ab_1ab_apply X Facts₀.shapeCasts_S70x100_S1x70x100 u i d

/-- The residual block as a `[70, 100]` matrix. -/
theorem pay5_apply (H6 : ∀ (i : Fin 70) (d : Fin 100), v6 (ix3 (0 : Fin 1) i d) = seq (ix3 b i d)) (i : Fin 70) (d : Fin 100) :
    k0_pay5 v6 (ix2 i d) = seq (ix3 b i d) :=
  (shapeCast_1ab_ab_apply v6 Facts₀.shapeCasts_S1x70x100_S70x100 i d).trans (H6 i d)

/-- The raw score of the relation in row `k` of the stack, from the matrix forms. -/
theorem rawScore_apply (v1 : FVec Ideal S70x100 .f32) (v5 : FVec Ideal S4x100 .f32) (a : Cert.Spec.SA.Idx → EReal)
    (k : Nat) (kk : Fin 4) (hk : kk.val = k) (hs : S4x100.Slices ![k, 0] S1x100)
    (H1 : ∀ (i : Fin 70) (d : Fin 100), v1 (ix2 i d) = h (ix3 b i d))
    (H4 : ∀ d : Fin 100, v5 (ix2 kk d) = a (ix1 d)) (i j : Fin 70) :
    matmul dot_S70x100_S100x70_S70x70_1_0_0_1_n_n none
        (mulf v1 (broadcastTo S70x100 (shapeCast S1x100 (shapeCast S100 (extractStridedSlice S1x100 ![k, 0] v5 hs)
          Facts₀.shapeCasts_S1x100_S100) Facts₀.shapeCasts_S100_S1x100) Facts₀.broadcasts_S1x100_S70x100))
        (transpose S100x70 [1, 0] v1 Facts₀.transposes_S70x100_p1_0_S100x70) (constant S70x70 .f32 0x00000000#32) (ix2 i j)
      = Cert.Spec.score h a b i j := by
  rw [score_apply _ dotScore_plain]
  unfold Cert.Spec.score
  refine Finset.sum_congr rfl fun d _ => ?_
  rw [relRow_apply k v5 hs _ _ _ kk hk, H1, H1, H4]

/-! ## The body's vector operations, grouped and named -/

/-- The raw scores of the relation in row `k` of the stack, as the body computes them. -/
def scoreV (k : Nat) (hs : S4x100.Slices ![k, 0] S1x100) (v1 : FVec Ideal S70x100 .f32) (v5 : FVec Ideal S4x100 .f32) :
    FVec Ideal S70x70 .f32 :=
  matmul dot_S70x100_S100x70_S70x70_1_0_0_1_n_n none
    (mulf v1 (broadcastTo S70x100 (shapeCast S1x100 (shapeCast S100 (extractStridedSlice S1x100 ![k, 0] v5 hs)
      Facts₀.shapeCasts_S1x100_S100) Facts₀.shapeCasts_S100_S1x100) Facts₀.broadcasts_S1x100_S70x100))
    (transpose S100x70 [1, 0] v1 Facts₀.transposes_S70x100_p1_0_S100x70) (constant S70x70 .f32 0x00000000#32)

/-- The leaky rectifier, entrywise. -/
def leakyV (x : FVec Ideal S70x70 .f32) : FVec Ideal S70x70 .f32 :=
  select (cmpf .oge x (broadcast S70x70 (Scalar.ofBits (F := Ideal) .f32 0x00000000#32))) x
    (mulf (broadcast S70x70 (Scalar.ofBits (F := Ideal) .f32 0x3E4CCCCD#32)) x)

/-- The logits: the rectified scores selected by the labels. -/
def logitV (lab : IVec S70x70 32) (e0 e1 e2 e3 : FVec Ideal S70x70 .f32) : FVec Ideal S70x70 .f32 :=
  select (cmpi .eq lab (broadcast S70x70 4#32)) e3
    (select (cmpi .eq lab (broadcast S70x70 3#32)) e2
      (select (cmpi .eq lab (broadcast S70x70 2#32)) e1
        (select (cmpi .eq lab (broadcast S70x70 1#32)) e0
          (broadcast S70x70 (Scalar.ofBits (F := Ideal) .f32 0xD9FFCB9E#32)))))

/-- The row maxima. -/
def rowMaxV (L : FVec Ideal S70x70 .f32) : FVec Ideal S70 .f32 :=
  maximumf (broadcast S70 (Scalar.ofBits (F := Ideal) .f32 0xFF800000#32))
    (multiReduction .maximumf [1] S70 L 0xFF800000#32 Facts₀.reduces_S70x70_S70 (.inl rfl) rfl)

/-- A row statistic repeated along its row. -/
def colV (r : FVec Ideal S70 .f32) : FVec Ideal S70x70 .f32 :=
  broadcastTo S70x70 (shapeCast S70x1 r Facts₀.shapeCasts_S70_S70x1) Facts₀.broadcasts_S70x1_S70x70

/-- The shifted exponentials. -/
def expoV (L : FVec Ideal S70x70 .f32) : FVec Ideal S70x70 .f32 := exp (subf L (colV (rowMaxV L)))

/-- The weights. -/
def weightV (L : FVec Ideal S70x70 .f32) : FVec Ideal S70x70 .f32 :=
  divf (expoV L) (colV (multiReduction .add [1] S70 (expoV L) 0x00000000#32 Facts₀.reduces_S70x70_S70 (.inl rfl) rfl))

/-- The weighted sum of the embeddings plus the residual. -/
def finishV (L : FVec Ideal S70x70 .f32) (v1 v7 : FVec Ideal S70x100 .f32) : FVec Ideal S70x100 .f32 :=
  addf (matmul dot_S70x70_S70x100_S70x100_1_0_0_1_n_n none (weightV L) v1 (constant S70x100 .f32 0x00000000#32)) v7

/-! The body's named values are these groups, by unfolding. -/

theorem pay6_eq : k0_pay6 v0 v4 = leakyV (scoreV 0 Facts₀.slices_S4x100_o0_0_S1x100 (k0_pay2 v0) (k0_pay4 v4)) := rfl
theorem pay7_eq : k0_pay7 v0 v4 = leakyV (scoreV 1 Facts₀.slices_S4x100_o1_0_S1x100 (k0_pay2 v0) (k0_pay4 v4)) := rfl
theorem pay8_eq : k0_pay8 v0 v4 = scoreV 2 Facts₀.slices_S4x100_o2_0_S1x100 (k0_pay2 v0) (k0_pay4 v4) := rfl
theorem pay10_eq (v1 : FVec Ideal S70x100 .f32) (v3 : IVec S70x70 32) (v5 : FVec Ideal S4x100 .f32) (v7 : FVec Ideal S70x100 .f32)
    (v19 v31 v38 : FVec Ideal S70x70 .f32) :
    k0_pay10 v1 v3 v5 v7 v19 v31 v38 (k0_pay9 (F := Ideal))
      = finishV (logitV v3 v19 v31 (leakyV v38) (leakyV (scoreV 3 Facts₀.slices_S4x100_o3_0_S1x100 v1 v5))) v1 v7 := rfl

/-! Each group read at an entry. -/

theorem leakyV_apply (x : FVec Ideal S70x70 .f32) (i j : Fin 70) : leakyV x (ix2 i j) = Cert.Spec.leaky (x (ix2 i j)) := rfl

theorem logitV_apply (lab : IVec S70x70 32) (e0 e1 e2 e3 : FVec Ideal S70x70 .f32) (i j : Fin 70) :
    logitV lab e0 e1 e2 e3 (ix2 i j)
      = Scalar.select (IntOp.cmpi .eq (lab (ix2 i j)) 4#32) (e3 (ix2 i j))
          (Scalar.select (IntOp.cmpi .eq (lab (ix2 i j)) 3#32) (e2 (ix2 i j))
            (Scalar.select (IntOp.cmpi .eq (lab (ix2 i j)) 2#32) (e1 (ix2 i j))
              (Scalar.select (IntOp.cmpi .eq (lab (ix2 i j)) 1#32) (e0 (ix2 i j)) (Ideal.ofBits .f32 0xD9FFCB9E#32)))) := rfl

theorem rowMaxV_apply (L : FVec Ideal S70x70 .f32) (i : Fin 70) :
    rowMaxV L (ix1 i) = max (Ideal.ofBits .f32 0xFF800000#32)
      ((Finset.univ : Finset (Fin 70)).fold max (Ideal.ofBits .f32 0xFF800000#32) (fun j => L (ix2 i j))) :=
  rowMax_apply L Facts₀.reduces_S70x70_S70 (.inl rfl) rfl i

theorem colV_apply (r : FVec Ideal S70 .f32) (i j : Fin 70) : colV r (ix2 i j) = r (ix1 i) :=
  col_apply r Facts₀.shapeCasts_S70_S70x1 Facts₀.broadcasts_S70x1_S70x70 i j

theorem expoV_apply (L : FVec Ideal S70x70 .f32) (i j : Fin 70) :
    expoV L (ix2 i j) = Ideal.exp (L (ix2 i j) - rowMaxV L (ix1 i)) := by
  show Ideal.exp (L (ix2 i j) - colV (rowMaxV L) (ix2 i j)) = _
  rw [colV_apply]

theorem weightV_apply (L : FVec Ideal S70x70 .f32) (i j : Fin 70) :
    weightV L (ix2 i j) = Ideal.div (expoV L (ix2 i j)) (∑ j' : Fin 70, expoV L (ix2 i j')) := by
  show Ideal.div (expoV L (ix2 i j)) (colV _ (ix2 i j)) = _
  rw [colV_apply]
  exact congrArg (Ideal.div _) (rowSum_apply (expoV L) Facts₀.reduces_S70x70_S70 (.inl rfl) rfl i)

theorem finishV_apply (L : FVec Ideal S70x70 .f32) (v1 v7 : FVec Ideal S70x100 .f32) (i : Fin 70) (d : Fin 100) :
    finishV L v1 v7 (ix2 i d) = (∑ j : Fin 70, weightV L (ix2 i j) * v1 (ix2 j d)) + v7 (ix2 i d) := by
  show matmul dot_S70x70_S70x100_S70x100_1_0_0_1_n_n none (weightV L) v1 (constant S70x100 .f32 0x00000000#32) (ix2 i d)
    + v7 (ix2 i d) = _
  rw [mix_apply _ dotMix_plain]

theorem scoreV_apply (k : Nat) (kk : Fin 4) (hk : kk.val = k) (hs : S4x100.Slices ![k, 0] S1x100)
    (v1 : FVec Ideal S70x100 .f32) (v5 : FVec Ideal S4x100 .f32) (a : Cert.Spec.SA.Idx → EReal)
    (H1 : ∀ (i : Fin 70) (d : Fin 100), v1 (ix2 i d) = h (ix3 b i d))
    (H4 : ∀ d : Fin 100, v5 (ix2 kk d) = a (ix1 d)) (i j : Fin 70) :
    scoreV k hs v1 v5 (ix2 i j) = Cert.Spec.score h a b i j :=
  rawScore_apply h b v1 v5 a k kk hk hs H1 H4 i j

/-- **The attention body at an entry.** When the loaded blocks are session `b`'s slices of `h`, `edge`, `seq` and the
    stack's rows are `a₀ … a₃`, the stored value at `(u, i, d)` is the specification's first result at `(b, i, d)`. -/
theorem att0_apply
    (H0 : ∀ (i : Fin 70) (d : Fin 100), v0 (ix3 (0 : Fin 1) i d) = h (ix3 b i d))
    (H2 : ∀ (i j : Fin 70), v2 (ix3 (0 : Fin 1) i j) = edge (ix3 b i j))
    (H40 : ∀ d : Fin 100, v4 (ix2 (0 : Fin 4) d) = a0 (ix1 d))
    (H41 : ∀ d : Fin 100, v4 (ix2 (1 : Fin 4) d) = a1 (ix1 d))
    (H42 : ∀ d : Fin 100, v4 (ix2 (2 : Fin 4) d) = a2 (ix1 d))
    (H43 : ∀ d : Fin 100, v4 (ix2 (3 : Fin 4) d) = a3 (ix1 d))
    (H6 : ∀ (i : Fin 70) (d : Fin 100), v6 (ix3 (0 : Fin 1) i d) = seq (ix3 b i d))
    (u : Fin 1) (i : Fin 70) (d : Fin 100) :
    att0 v0 v2 v4 v6 (ix3 u i d) = Cert.Spec.attAt h edge a0 a1 a2 a3 seq b i d := by
  have H1 := pay2_apply v0 h b H0
  have H3 := pay3_apply v2 edge b H2
  have H7 := pay5_apply v6 seq b H6
  have e4 := pay4_eq v4
  -- the four scores
  have s0 : ∀ i j, k0_pay6 v0 v4 (ix2 i j) = Cert.Spec.leaky (Cert.Spec.score h a0 b i j) := fun i j => by
    rw [pay6_eq, leakyV_apply, scoreV_apply h b 0 0 rfl _ _ _ a0 H1 (by rw [e4]; exact H40)]
  have s1 : ∀ i j, k0_pay7 v0 v4 (ix2 i j) = Cert.Spec.leaky (Cert.Spec.score h a1 b i j) := fun i j => by
    rw [pay7_eq, leakyV_apply, scoreV_apply h b 1 1 rfl _ _ _ a1 H1 (by rw [e4]; exact H41)]
  have s2 : ∀ i j, leakyV (k0_pay8 v0 v4) (ix2 i j) = Cert.Spec.leaky (Cert.Spec.score h a2 b i j) := fun i j => by
    rw [leakyV_apply, pay8_eq, scoreV_apply h b 2 2 rfl _ _ _ a2 H1 (by rw [e4]; exact H42)]
  have s3 : ∀ i j, leakyV (scoreV 3 Facts₀.slices_S4x100_o3_0_S1x100 (k0_pay2 v0) (k0_pay4 v4)) (ix2 i j)
      = Cert.Spec.leaky (Cert.Spec.score h a3 b i j) := fun i j => by
    rw [leakyV_apply, scoreV_apply h b 3 3 rfl _ _ _ a3 H1 (by rw [e4]; exact H43)]
  -- the logits
  have hL : ∀ i j, logitV (k0_pay3 v2) (k0_pay6 v0 v4) (k0_pay7 v0 v4) (leakyV (k0_pay8 v0 v4))
        (leakyV (scoreV 3 Facts₀.slices_S4x100_o3_0_S1x100 (k0_pay2 v0) (k0_pay4 v4))) (ix2 i j)
      = Cert.Spec.logit h edge a0 a1 a2 a3 b i j := fun i j => by
    rw [logitV_apply, H3, s0, s1, s2, s3]; rfl
  -- the stored value
  show k0_pay1 (k0_pay10 (k0_pay2 v0) (k0_pay3 v2) (k0_pay4 v4) (k0_pay5 v6) (k0_pay6 v0 v4) (k0_pay7 v0 v4) (k0_pay8 v0 v4)
    (k0_pay9 (F := Ideal))) (ix3 u i d) = _
  rw [pay1_apply, pay10_eq, finishV_apply]
  generalize logitV (k0_pay3 v2) (k0_pay6 v0 v4) (k0_pay7 v0 v4) (leakyV (k0_pay8 v0 v4))
    (leakyV (scoreV 3 Facts₀.slices_S4x100_o3_0_S1x100 (k0_pay2 v0) (k0_pay4 v4))) = L at hL ⊢
  have hM : ∀ i, rowMaxV L (ix1 i) = Cert.Spec.rowMax h edge a0 a1 a2 a3 b i := fun i => by
    rw [rowMaxV_apply]; unfold Cert.Spec.rowMax; simp only [hL]
  have hE : ∀ i j, expoV L (ix2 i j) = Cert.Spec.expo h edge a0 a1 a2 a3 b i j := fun i j => by
    rw [expoV_apply, hL, hM]; rfl
  have hW : ∀ i j, weightV L (ix2 i j) = Cert.Spec.weight h edge a0 a1 a2 a3 b i j := fun i j => by
    rw [weightV_apply]; unfold Cert.Spec.weight; simp only [hE]
  unfold Cert.Spec.attAt
  rw [H7]
  refine congrArg (· + seq (ix3 b i d)) (Finset.sum_congr rfl fun j _ => ?_)
  rw [hW, H1]

end

end Cert.KernelIdeal.Val

end
-- ==== Proof.KIBlocks0.lean ====
import proofs.«130248_j9509057593869_1_alg».proof.Proof.KIData
import proofs.«130248_j9509057593869_1_alg».proof.Proof.KIAtt
import proofs.«130248_j9509057593869_1_alg».proof.Proof.Spec
import Idealize.ShloMosaic.Lib.Pipeline.Value

/-!
# The attention pipeline's result array after its 128 points

Point `t` of the grid is session `t`. Its embeddings, labels and residual blocks are session `t`'s slices of their
arrays (block index `(t, 0, 0)`, one session per block), the stack of relation vectors is read whole at every point, and
the point writes back one `[1, 70, 100]` block at `(t, 0, 0)` of the result. By the body's value at an entry, that block
is session `t`'s slice of the specification's first result, taken of the arrays as the pipeline finds them. The 128
blocks fill `[128, 70, 100]`: index `(b, i, d)` is in point `b`'s block. So the array ends holding that result.
-/

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

/-- row k of the [4,100] stack as a [100] vector -/
def stackRow (S : (⟨2, ![4, 100]⟩ : Shape).Idx → EReal) (k : Fin 4) : Cert.Spec.SA.Idx → EReal := fun x => S (ValueIdx.ix2 k (x 0))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The grid has 128 points: a point's number is a session. -/
theorem point_lt (t : Fin cfg0.N) : t.val < 128 :=
  lt_of_lt_of_eq t.isLt (show cfg0.N = 128 from N_0)

/-- The index maps over the grid: the embeddings, labels, residual and result blocks of point `t` are at block index
    `(t, 0, 0)`, the stack's at `(0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

section
variable (V : (c : Dev nD) → (b : Ref sig .tc) → Buf (Elt Ideal) ((c : Thread nD τ).loc b)) (c : Dev nD) (t : Fin cfg0.N)

/-- The embeddings block of point `t` is session `t`'s slice of the embeddings array. -/
theorem blkH_apply (ht : t.val < 128) (i : Fin 70) (d : Fin 100) :
    (iblk0 V c 0 t : S1x70x100.Idx → EReal) (ix3 (0 : Fin 1) i d)
      = (V c main_v6 : S128x70x100.Idx → EReal) (ix3 (⟨t.val, ht⟩ : Fin 128) i d) := by
  obtain ⟨e0, e1, e2, -⟩ := index_facts t
  unfold iblk0
  rw [View.read_apply]
  show (V c main_v6 : S128x70x100.Idx → EReal) _ = (V c main_v6 : S128x70x100.Idx → EReal) _
  congr 1
  funext a
  apply Fin.ext
  match a with
  | ⟨0, _⟩ => show win0_0.index t (0 : Fin 3) * 1 + 1 * 0 = t.val; omega
  | ⟨1, _⟩ => show win0_0.index t (1 : Fin 3) * 70 + 1 * i.val = i.val; omega
  | ⟨2, _⟩ => show win0_0.index t (2 : Fin 3) * 100 + 1 * d.val = d.val; omega

/-- The labels block of point `t` is session `t`'s slice of the labels array. -/
theorem blkE_apply (ht : t.val < 128) (i j : Fin 70) :
    (iblk0 V c 1 t : S1x70x70.Idx → BitVec 32) (ix3 (0 : Fin 1) i j)
      = (V c main_arg1 : S128x70x70.Idx → BitVec 32) (ix3 (⟨t.val, ht⟩ : Fin 128) i j) := by
  obtain ⟨-, -, -, e0, e1, e2, -⟩ := index_facts t
  unfold iblk0
  rw [View.read_apply]
  show (V c main_arg1 : S128x70x70.Idx → BitVec 32) _ = (V c main_arg1 : S128x70x70.Idx → BitVec 32) _
  congr 1
  funext a
  apply Fin.ext
  match a with
  | ⟨0, _⟩ => show win0_1.index t (0 : Fin 3) * 1 + 1 * 0 = t.val; omega
  | ⟨1, _⟩ => show win0_1.index t (1 : Fin 3) * 70 + 1 * i.val = i.val; omega
  | ⟨2, _⟩ => show win0_1.index t (2 : Fin 3) * 70 + 1 * j.val = j.val; omega

/-- The stack's block at any point is the whole stack. -/
theorem blkA_apply (k : Fin 4) (d : Fin 100) :
    (iblk0 V c 2 t : S4x100.Idx → EReal) (ix2 k d) = (V c main_v50 : S4x100.Idx → EReal) (ix2 k d) := by
  obtain ⟨-, -, -, -, -, -, e0, e1, -⟩ := index_facts t
  unfold iblk0
  rw [View.read_apply]
  show (V c main_v50 : S4x100.Idx → EReal) _ = (V c main_v50 : S4x100.Idx → EReal) _
  congr 1
  funext a
  apply Fin.ext
  match a with
  | ⟨0, _⟩ => show win0_2.index t (0 : Fin 2) * 4 + 1 * k.val = k.val; omega
  | ⟨1, _⟩ => show win0_2.index t (1 : Fin 2) * 100 + 1 * d.val = d.val; omega

/-- The residual block of point `t` is session `t`'s slice of the residual array. -/
theorem blkR_apply (ht : t.val < 128) (i : Fin 70) (d : Fin 100) :
    (iblk0 V c 3 t : S1x70x100.Idx → EReal) (ix3 (0 : Fin 1) i d)
      = (V c main_v45 : S128x70x100.Idx → EReal) (ix3 (⟨t.val, ht⟩ : Fin 128) i d) := by
  obtain ⟨-, -, -, -, -, -, -, -, e0, e1, e2, -⟩ := index_facts t
  unfold iblk0
  rw [View.read_apply]
  show (V c main_v45 : S128x70x100.Idx → EReal) _ = (V c main_v45 : S128x70x100.Idx → EReal) _
  congr 1
  funext a
  apply Fin.ext
  match a with
  | ⟨0, _⟩ => show win0_3.index t (0 : Fin 3) * 1 + 1 * 0 = t.val; omega
  | ⟨1, _⟩ => show win0_3.index t (1 : Fin 3) * 70 + 1 * i.val = i.val; omega
  | ⟨2, _⟩ => show win0_3.index t (2 : Fin 3) * 100 + 1 * d.val = d.val; omega

/-- An element of point `t`'s result block sits in the result array at session `t`. -/
theorem blkO_emb (ht : t.val < 128) (u : Fin 1) (i : Fin 70) (d : Fin 100) :
    (((cfg0.win 4).blk t).view.emb (ix3 u i d) : S128x70x100.Idx) = ix3 (⟨t.val, ht⟩ : Fin 128) i d := by
  obtain ⟨-, -, -, -, -, -, -, -, -, -, -, e0, e1, e2⟩ := index_facts t
  funext a
  apply Fin.ext
  have hu : u.val = 0 := by have := u.isLt; omega
  match a with
  | ⟨0, _⟩ => show win0_4.index t (0 : Fin 3) * 1 + 1 * u.val = t.val; omega
  | ⟨1, _⟩ => show win0_4.index t (1 : Fin 3) * 70 + 1 * i.val = i.val; omega
  | ⟨2, _⟩ => show win0_4.index t (2 : Fin 3) * 100 + 1 * d.val = d.val; omega

/-- What point `t` writes back is block `t` of the specification's first result of the arrays as entered. -/
theorem flushed0_eq :
    (dat0 (F := Ideal) V c).flushed 4 t = ((cfg0.win 4).blk t).view.read (Elt Ideal)
      (Cert.Spec.att (V c main_v6) (V c main_arg1) (stackRow (V c main_v50) 0) (stackRow (V c main_v50) 1)
      (stackRow (V c main_v50) 2) (stackRow (V c main_v50) 3) (V c main_v45)) := by
  have ht : t.val < 128 := point_lt t
  show (cfg0.win 4).cut (grid0.coords t) ((dat0 V c).after 4 t) = _
  rw [after0_4]
  unfold out0_4
  rw [View.canon_unit_zero zeros3]
  simp only [View.ld_unit_zero (S := S1x70x100) zeros3, View.ld_unit_zero (S := S1x70x70) zeros3,
    View.ld_unit_zero (S := S4x100) zeros2]
  refine funext fun (y : S1x70x100.Idx) => ?_
  obtain ⟨u, i, d, rfl⟩ : ∃ (u : Fin 1) (i : Fin 70) (d : Fin 100), y = ix3 u i d := ⟨y 0, y 1, y 2, eq_ix3 y⟩
  show att0 (iblk0 V c 0 t) (iblk0 V c 1 t) (iblk0 V c 2 t) (iblk0 V c 3 t) (ix3 u i d) = _
  refine (att0_apply (iblk0 V c 0 t) (iblk0 V c 1 t) (iblk0 V c 2 t) (iblk0 V c 3 t)
    (V c main_v6) (V c main_arg1) (stackRow (V c main_v50) 0) (stackRow (V c main_v50) 1)
      (stackRow (V c main_v50) 2) (stackRow (V c main_v50) 3) (V c main_v45)
    (⟨t.val, ht⟩ : Fin 128) ?_ ?_ ?_ ?_ ?_ ?_ ?_ u i d).trans ?_
  · exact fun i d => blkH_apply V c t ht i d
  · exact fun i j => blkE_apply V c t ht i j
  · exact fun d => blkA_apply V c t 0 d
  · exact fun d => blkA_apply V c t 1 d
  · exact fun d => blkA_apply V c t 2 d
  · exact fun d => blkA_apply V c t 3 d
  · exact fun i d => blkR_apply V c t ht i d
  · rw [View.read_apply]
    show _ = Cert.Spec.att (V c main_v6) (V c main_arg1) (stackRow (V c main_v50) 0) (stackRow (V c main_v50) 1)
      (stackRow (V c main_v50) 2) (stackRow (V c main_v50) 3) (V c main_v45) (((cfg0.win 4).blk t).view.emb (ix3 u i d))
    rw [blkO_emb t ht u i d]
    rfl

end

/-- An index of the result array is in point `t`'s block iff each coordinate is in the block's range on its axis. -/
theorem mem_blkO (t : Fin cfg0.N) (x : S128x70x100.Idx) :
    x ∈ ((cfg0.win 4).blk t).view.set ↔ ∀ a : Fin 3, win0_4.index t a * S1x70x100.size a ≤ (x a).val ∧ (x a).val < win0_4.index t a * S1x70x100.size a + S1x70x100.size a := by
  show x ∈ ((View.whole main_v51).slice (win0_4.rect t)).set ↔ _
  rw [View.set_slice_whole, Rect.mem_set_unit]
  exact Iff.rfl

/-- The 128 blocks fill the result array: index `(b, i, d)` is in point `b`'s block. -/
theorem cover0 (x : S128x70x100.Idx) :
    ∃ t : Fin cfg0.N, (cfg0.win 4).flush t = true ∧ x ∈ ((cfg0.win 4).blk t).view.set := by
  have h0 : (x 0).val < 128 := (x 0).isLt
  have h1 : (x 1).val < 70 := (x 1).isLt
  have h2 : (x 2).val < 100 := (x 2).isLt
  obtain ⟨t, ht⟩ : ∃ t : Fin cfg0.N, t.val = (x 0).val :=
    ⟨⟨(x 0).val, lt_of_lt_of_eq h0 (show cfg0.N = 128 from N_0).symm⟩, rfl⟩
  obtain ⟨-, -, -, -, -, -, -, -, -, -, -, e0, e1, e2⟩ := index_facts t
  refine ⟨t, flush0_4 t, ?_⟩
  rw [mem_blkO]
  intro a
  match a with
  | ⟨0, _⟩ => show win0_4.index t (0 : Fin 3) * 1 ≤ (x 0).val ∧ (x 0).val < win0_4.index t (0 : Fin 3) * 1 + 1; omega
  | ⟨1, _⟩ => show win0_4.index t (1 : Fin 3) * 70 ≤ (x 1).val ∧ (x 1).val < win0_4.index t (1 : Fin 3) * 70 + 70; omega
  | ⟨2, _⟩ => show win0_4.index t (2 : Fin 3) * 100 ≤ (x 2).val ∧ (x 2).val < win0_4.index t (2 : Fin 3) * 100 + 100; omega

/-- The result array after the 128 points is the specification's first result of the arrays as the pipeline finds them. -/
theorem final0 (V : (c : Dev nD) → (b : Ref sig .tc) → Buf (Elt Ideal) ((c : Thread nD τ).loc b)) (c : Dev nD) :
    (dat0 (F := Ideal) V c).arrAt 4 cfg0.N
      = Cert.Spec.att (V c main_v6) (V c main_arg1) (stackRow (V c main_v50) 0) (stackRow (V c main_v50) 1)
      (stackRow (V c main_v50) 2) (stackRow (V c main_v50) 3) (V c main_v45) :=
  (dat0 (F := Ideal) V c).arrAt_eq_of_cover 4
    (Cert.Spec.att (V c main_v6) (V c main_arg1) (stackRow (V c main_v50) 0) (stackRow (V c main_v50) 1)
      (stackRow (V c main_v50) 2) (stackRow (V c main_v50) 3) (V c main_v45))
    (fun t _ => flushed0_eq V c t) cover0

end Cert.KernelIdeal.Val

end
-- ==== Proof.KISess.lean ====
import proofs.«130248_j9509057593869_1_alg».proof.Proof.KIData
import proofs.«130248_j9509057593869_1_alg».proof.Proof.LibSoftplus
import proofs.«130248_j9509057593869_1_alg».proof.Proof.Spec
import Idealize.ShloMosaic.Lib.Pipeline.Value

/-!
# The session-diffusion body at an entry

The body loads `D`, `A` (128 × 128) and the session embeddings `s` (128 × 100) whole, forms `M = D · A`, the two hops
`M s` and `M (M s)`, adds them to `s` and divides by the word of 3. At the ideal values each product into a zero
accumulator is the plain sum over the contracted coordinate, so the stored value at `(p, d)` is the second result of the
specification at `(p, d)`, of the three loaded arrays.
-/

noncomputable section

namespace Cert.KernelIdeal.Val

open Idealize.ShloMosaic Idealize.ShloMosaic.ValueIdx
open Cert.KernelIdeal Cert.KernelIdeal.Gen Cert.KernelIdeal.Frm

theorem dotDA_plain : dot_S128x128_S128x128_S128x128_1_0_0_1_n_n = DotDims.plain 128 128 128 := rfl
theorem dotMS_plain : dot_S128x128_S128x100_S128x100_1_0_0_1_n_n = DotDims.plain 128 128 100 := rfl

/-- The stored value of the session body at `(p, d)`. -/
theorem sess_pay_apply (v0 v1 : Vec Ideal S128x128 .f32) (v3 : Vec Ideal S128x100 .f32) (p : Fin 128) (d : Fin 100) :
    k1_pay1 v0 v1 v3 (ix2 p d) = Cert.Spec.sessAt v0 v1 v3 p d := by
  unfold k1_pay1
  simp only [divf_apply, addf_apply, broadcast_apply, shapeCast_self,
    Cert.Lib.Softplus.matmul0_plain_apply _ dotDA_plain, Cert.Lib.Softplus.matmul0_plain_apply _ dotMS_plain]
  rfl

end Cert.KernelIdeal.Val

end
-- ==== Proof.KIBlocks1.lean ====
import proofs.«130248_j9509057593869_1_alg».proof.Proof.KIData
import proofs.«130248_j9509057593869_1_alg».proof.Proof.KISess
import proofs.«130248_j9509057593869_1_alg».proof.Proof.Spec

/-!
# The session-diffusion pipeline's result array

The pipeline has one point. Every window's block index there is zero and every block has its array's extents, so
each input block is its whole array and the one block written back is the whole result array. The body's stored
value at `(p, d)` is the specification's second result at `(p, d)` of the three loaded arrays; hence the result
array after the point is the specification's second result of the three input arrays as the pipeline finds them.
-/

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

theorem offs_zero : (![0, 0] : Fin 2 → Nat) = fun _ => 0 := funext fun a => by fin_cases a <;> rfl

/-- The stored block is the specification's second result of the three loaded blocks. -/
theorem sess_block (a0 a1 : Vec Ideal S128x128 .f32) (a2 : Vec Ideal S128x100 .f32) :
    (k1_pay1 a0 a1 a2 : S128x100.Idx → EReal) = Cert.Spec.sess a0 a1 a2 := by
  funext j
  obtain ⟨p, d, rfl⟩ : ∃ (p : Fin 128) (d : Fin 100), j = ix2 p d := ⟨j 0, j 1, eq_ix2 j⟩
  exact (sess_pay_apply a0 a1 a2 p d).trans (Cert.Spec.sess_ix2 a0 a1 a2 p d).symm

/-- The printed index maps, decided over the one point: every window's block index is zero on both axes. -/
theorem idx_zero : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Window 0's block at the point is the whole array `D`. -/
theorem iblk1_0 (c : Dev nD) (t : Fin cfg1.N) : (iblk1 V c 0 t : S128x128.Idx → EReal) = V c main_arg5 := by
  obtain ⟨e0, e1, -⟩ := idx_zero t
  funext y
  show V c main_arg5 (((cfg1.win 0).blk t).view.emb y) = V c main_arg5 y
  congr 1
  funext a; apply Fin.ext
  match a with
  | ⟨0, _⟩ => show win1_0.index t (0 : Fin 2) * 128 + 1 * (y 0).val = (y 0).val; omega
  | ⟨1, _⟩ => show win1_0.index t (1 : Fin 2) * 128 + 1 * (y 1).val = (y 1).val; omega

/-- Window 1's block at the point is the whole array `A`. -/
theorem iblk1_1 (c : Dev nD) (t : Fin cfg1.N) : (iblk1 V c 1 t : S128x128.Idx → EReal) = V c main_arg6 := by
  obtain ⟨-, -, e0, e1, -⟩ := idx_zero t
  funext y
  show V c main_arg6 (((cfg1.win 1).blk t).view.emb y) = V c main_arg6 y
  congr 1
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Window 2's block at the point is the whole array of session embeddings. -/
theorem iblk1_2 (c : Dev nD) (t : Fin cfg1.N) : (iblk1 V c 2 t : S128x100.Idx → EReal) = V c main_v63 := by
  obtain ⟨-, -, -, -, e0, e1, -⟩ := idx_zero t
  funext y
  show V c main_v63 (((cfg1.win 2).blk t).view.emb y) = V c main_v63 y
  congr 1
  funext a; apply Fin.ext
  match a with
  | ⟨0, _⟩ => show win1_2.index t (0 : Fin 2) * 128 + 1 * (y 0).val = (y 0).val; omega
  | ⟨1, _⟩ => show win1_2.index t (1 : Fin 2) * 100 + 1 * (y 1).val = (y 1).val; omega

/-- What the point writes back is the one block — the whole — of the specification's second result of the three
    input arrays as the pipeline finds them. -/
theorem flushed1_eq (c : Dev nD) (t : Fin cfg1.N) :
    (dat1 (F := Ideal) V c).flushed 3 t
      = ((cfg1.win 3).blk t).view.read (Elt Ideal) (Cert.Spec.sess (V c main_arg5) (V c main_arg6) (V c main_v63)) := by
  show (cfg1.win 3).cut (grid1.coords t) ((dat1 V c).after 3 t) = _
  rw [after1_3]
  unfold out1_3
  rw [View.canon_unit_zero offs_zero]
  simp only [View.ld_unit_zero (S := S128x128) offs_zero, View.ld_unit_zero (S := S128x100) offs_zero]
  obtain ⟨-, -, -, -, -, -, e0, e1⟩ := idx_zero t
  funext y
  show k1_pay1 (iblk1 V c 0 t) (iblk1 V c 1 t) (iblk1 V c 2 t) y
    = Cert.Spec.sess (V c main_arg5) (V c main_arg6) (V c main_v63) (((cfg1.win 3).blk t).view.emb y)
  have hy : ((cfg1.win 3).blk t).view.emb y = y := by
    funext a; apply Fin.ext
    match a with
    | ⟨0, _⟩ => show win1_3.index t (0 : Fin 2) * 128 + 1 * (y 0).val = (y 0).val; omega
    | ⟨1, _⟩ => show win1_3.index t (1 : Fin 2) * 100 + 1 * (y 1).val = (y 1).val; omega
  rw [hy]
  refine (congrFun (sess_block _ _ _) y).trans ?_
  rw [iblk1_0 V c t, iblk1_1 V c t, iblk1_2 V c t]

/-- An index of the result array is in the point's block iff each coordinate is in the block's range on its axis. -/
theorem mem_blk1 (t : Fin cfg1.N) (i : S128x100.Idx) :
    i ∈ ((cfg1.win 3).blk t).view.set ↔ ∀ a : Fin 2, win1_3.index t a * S128x100.size a ≤ (i a).val
      ∧ (i a).val < win1_3.index t a * S128x100.size a + S128x100.size a := by
  show i ∈ ((View.whole main_v64).slice (win1_3.rect t)).set ↔ _
  rw [View.set_slice_whole, Rect.mem_set_unit]
  exact Iff.rfl

/-- The one block covers the result array. -/
theorem cover1 (i : S128x100.Idx) : ∃ t : Fin cfg1.N, (cfg1.win 3).flush t = true ∧ i ∈ ((cfg1.win 3).blk t).view.set := by
  obtain ⟨-, -, -, -, -, -, e0, e1⟩ := idx_zero t1_0
  have h0 : (i 0).val < 128 := (i 0).isLt
  have h1 : (i 1).val < 100 := (i 1).isLt
  refine ⟨t1_0, flush1_3 t1_0, ?_⟩
  rw [mem_blk1]
  intro a
  match a with
  | ⟨0, _⟩ => show win1_3.index t1_0 (0 : Fin 2) * 128 ≤ (i 0).val ∧ (i 0).val < win1_3.index t1_0 (0 : Fin 2) * 128 + 128; omega
  | ⟨1, _⟩ => show win1_3.index t1_0 (1 : Fin 2) * 100 ≤ (i 1).val ∧ (i 1).val < win1_3.index t1_0 (1 : Fin 2) * 100 + 100; omega

/-- The result array after the pipeline's one point: the specification's second result of the three input arrays
    as the pipeline finds them. -/
theorem final1 (V : (c : Dev nD) → (b : Ref sig .tc) → Buf (Elt Ideal) ((c : Thread nD τ).loc b)) (c : Dev nD) :
    (dat1 (F := Ideal) V c).arrAt 3 cfg1.N = Cert.Spec.sess (V c main_arg5) (V c main_arg6) (V c main_v63) :=
  (dat1 (F := Ideal) V c).arrAt_eq_of_cover 3 (Cert.Spec.sess (V c main_arg5) (V c main_arg6) (V c main_v63))
    (fun t _ => flushed1_eq V c t) cover1

end Cert.KernelIdeal.Val

end
-- ==== Proof.LibConcatUnits.lean ====
import Idealize.ShloMosaic.Lib.Pipeline.Value

/-!
# A stack of unit-extent pieces, read at an index

`jnp.stack` along a new last axis prints, in a kernel as on the host, as one concatenation of pieces whose
extent along the joined axis is 1. When the pieces are given as a list whose `k`th entry is `f k` for one
function `f` of the position, the concatenation at an index `j` is `f (j a)` read at the index that
agrees with `j` off the joined axis: the coordinate on the joined axis names the piece, and inside the piece
that coordinate is 0.
-/

noncomputable section

namespace Idealize.ShloMosaic

variable {α : Type}

/-- The extents along axis `a` of the first `k` pieces of a list of pieces that all have the shape `s₁`, of
    extent 1 along the axis, sum to `k`. -/
theorem sum_unit_extents_take {t s₁ : Shape} (a : Fin t.rank) (xs : List ((s : Shape) × (s.Idx → α)))
    (hr : s₁.rank = t.rank) (h1 : s₁.size (a.cast hr.symm) = 1) (hall : ∀ p ∈ xs, p.1 = s₁) (k : Nat) (hk : k ≤ xs.length) :
    (((xs.take k).map (·.1)).map fun s => if h : s.rank = t.rank then s.size (a.cast h.symm) else 0).sum = k := by
  have hone : ∀ x ∈ (((xs.take k).map (·.1)).map fun s => if h : s.rank = t.rank then s.size (a.cast h.symm) else 0), x = 1 := by
    intro x hx
    simp only [List.map_map, List.mem_map, Function.comp] at hx
    obtain ⟨p, hp, rfl⟩ := hx
    have hp' : p.1 = s₁ := hall p (List.mem_of_mem_take hp)
    obtain ⟨s', x⟩ := p
    dsimp only at hp' ⊢
    subst hp'
    rw [dif_pos hr]; exact h1
  rw [List.sum_eq_card_nsmul _ 1 hone]
  simp [List.length_take, Nat.min_eq_left hk]

/-- **A stack of unit pieces read at an index.** The list `xs` of pieces, the `k`th of which is `⟨s₁, f k⟩` with
    `s₁` of extent 1 along the joined axis `a`, concatenated along `a` and read at `j`, is piece `(j a)` read at
    any index `i` of `s₁` that agrees with `j` off the axis. -/
theorem concatenate_units_apply {t s₁ : Shape} (a : Fin t.rank) (xs : List ((s : Shape) × (s.Idx → α)))
    (h : Shape.Concatenates (xs.map (·.1)) t a) (hr : s₁.rank = t.rank) (h1 : s₁.size (a.cast hr.symm) = 1)
    (f : Nat → s₁.Idx → α) (hxs : ∀ (k : Nat) (hk : k < xs.length), xs[k] = ⟨s₁, f k⟩)
    (j : t.Idx) (i : s₁.Idx) (hi : ∀ b : Fin s₁.rank, b.cast hr ≠ a → (i b).val = (j (b.cast hr)).val) :
    concatenate t a xs h j = f (j a).val i := by
  have hall : ∀ p ∈ xs, p.1 = s₁ := by
    intro p hp
    obtain ⟨k, hk, rfl⟩ := List.getElem_of_mem hp
    rw [hxs k hk]
  -- the joined axis has as many cells as there are pieces
  have hlen : t.size a = xs.length := by
    have := sum_unit_extents_take a xs hr h1 hall xs.length (Nat.le_refl _)
    rw [List.take_length] at this
    rw [← h.2.2, this]
  have hk : (j a).val < xs.length := by rw [← hlen]; exact (j a).isLt
  have hi0 : (i (a.cast hr.symm)).val = 0 := by
    have := (i (a.cast hr.symm)).isLt
    have e : s₁.size (a.cast hr.symm) = 1 := h1
    omega
  exact concatenate_apply_piece a xs h j (j a).val hk s₁ (f (j a).val) (hxs _ hk) hr (j a).val
    (sum_unit_extents_take a xs hr h1 hall _ (Nat.le_of_lt hk)) i hi (by rw [hi0]; rfl)

end Idealize.ShloMosaic

end
-- ==== Proof.KIHost.lean ====
import proofs.«130248_j9509057593869_1_alg».proof.Proof.KIData
import proofs.«130248_j9509057593869_1_alg».proof.Proof.Gen.ReferenceIdeal.Read
import proofs.«130248_j9509057593869_1_alg».proof.Proof.LibConcatUnits

/-!
# The kernel program's host chains are the reference's

The kernel program's two stretches of host operations apply, to the launch contents of the arguments, the same
operations the reference applies: the gathered item embeddings, the stack of the four relation vectors, the initial
session embeddings, and the arguments the stretches leave as launched.
-/

noncomputable section

namespace Cert.KernelIdeal.Host

open Idealize.ShloMosaic Idealize.ShloMosaic.ValueIdx Cert.KernelIdeal Cert.KernelIdeal.Gen Cert.KernelIdeal.Frm

variable (m : (ℓ : Loc nD τ sig) → Buf (Elt Ideal) ℓ) (ρ : Dev nD → PrngReg) (c : Dev nD)

/-- Finishes reading a stretch of host operations where a result sits inside a list of pieces. -/
local macro "finish_results" : tactic =>
  `(tactic| repeat (first
      | rw [StableHlo.nullary_result] | rw [StableHlo.unary_result] | rw [StableHlo.binary_result] | rw [StableHlo.ternary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)))

/-- The gathered item embeddings. -/
theorem h_eq : V1 m ρ c main_v6 = Cert.ReferenceIdeal.Read.val_main_v6 (F := Ideal) (m ((c.tc : Thread nD τ).loc main_arg0)) (m ((c.tc : Thread nD τ).loc main_arg8)) := by
  show StableHlo.after hostOps0 _ (Proc.devRef .tc main_v6) = _
  after_results_simp
  rfl

/-- The relation labels are as launched. -/
theorem edge_eq : V1 m ρ c main_arg1 = (m ((c.tc : Thread nD τ).loc main_arg1)) := by
  show StableHlo.after hostOps0 _ (Proc.devRef .tc main_arg1) = _
  after_results_simp <;> rfl

/-- The first stretch of host operations leaves argument 4 as launched. -/
theorem W1_arg4 : W1 m ρ c (Proc.devRef .tc main_arg4) = (m ((c.tc : Thread nD τ).loc main_arg4)) := by
  show StableHlo.after hostOps0 _ (Proc.devRef .tc main_arg4) = _
  after_results_simp <;> rfl

/-- The first stretch of host operations leaves argument 5 as launched. -/
theorem W1_arg5 : W1 m ρ c (Proc.devRef .tc main_arg5) = (m ((c.tc : Thread nD τ).loc main_arg5)) := by
  show StableHlo.after hostOps0 _ (Proc.devRef .tc main_arg5) = _
  after_results_simp <;> rfl

/-- The first stretch of host operations leaves argument 6 as launched. -/
theorem W1_arg6 : W1 m ρ c (Proc.devRef .tc main_arg6) = (m ((c.tc : Thread nD τ).loc main_arg6)) := by
  show StableHlo.after hostOps0 _ (Proc.devRef .tc main_arg6) = _
  after_results_simp <;> rfl

/-- The first stretch of host operations leaves argument 7 as launched. -/
theorem W1_arg7 : W1 m ρ c (Proc.devRef .tc main_arg7) = (m ((c.tc : Thread nD τ).loc main_arg7)) := by
  show StableHlo.after hostOps0 _ (Proc.devRef .tc main_arg7) = _
  after_results_simp <;> rfl

/-- The first stretch of host operations leaves argument 8 as launched. -/
theorem W1_arg8 : W1 m ρ c (Proc.devRef .tc main_arg8) = (m ((c.tc : Thread nD τ).loc main_arg8)) := by
  show StableHlo.after hostOps0 _ (Proc.devRef .tc main_arg8) = _
  after_results_simp <;> rfl

theorem D_eq : V3 m ρ c main_arg5 = (m ((c.tc : Thread nD τ).loc main_arg5)) := by
  show StableHlo.after hostOps1 _ (Proc.devRef .tc main_arg5) = _
  after_results_simp
  rw [W2_of_ne m ρ c main_arg5 (by decide), W1_arg5]

theorem A_eq : V3 m ρ c main_arg6 = (m ((c.tc : Thread nD τ).loc main_arg6)) := by
  show StableHlo.after hostOps1 _ (Proc.devRef .tc main_arg6) = _
  after_results_simp
  rw [W2_of_ne m ρ c main_arg6 (by decide), W1_arg6]

/-- The initial session embeddings: the second stretch applies the reference's own operations to the launch contents. -/
theorem s0_eq : V3 m ρ c main_v63
    = Cert.ReferenceIdeal.Read.val_main_v109 (F := Ideal) (m ((c.tc : Thread nD τ).loc main_arg4)) (m ((c.tc : Thread nD τ).loc main_arg7)) (m ((c.tc : Thread nD τ).loc main_arg8)) := by
  show StableHlo.after hostOps1 _ (Proc.devRef .tc main_v63) = _
  after_results_simp
  finish_results
  rw [W2_of_ne m ρ c main_arg4 (by decide), W2_of_ne m ρ c main_arg7 (by decide), W2_of_ne m ρ c main_arg8 (by decide),
    W1_arg4, W1_arg7, W1_arg8]
  rfl

/-- A stack of four rows read at row `r`: the piece the row names, read at its only row. -/
theorem stack_at_aux {α : Type} (p0 p1 p2 p3 : S1x100.Idx → α)
    (h : Shape.Concatenates [S1x100, S1x100, S1x100, S1x100] S4x100 0) (r : Fin 4) (d : Fin 100) :
    concatenate S4x100 0 [⟨S1x100, p0⟩, ⟨S1x100, p1⟩, ⟨S1x100, p2⟩, ⟨S1x100, p3⟩] h (ix2 r d)
      = (fun k => if k = 0 then p0 else if k = 1 then p1 else if k = 2 then p2 else p3) r.val (ix2 (0 : Fin 1) d) :=
  concatenate_units_apply (t := S4x100) (s₁ := S1x100) 0 [⟨S1x100, p0⟩, ⟨S1x100, p1⟩, ⟨S1x100, p2⟩, ⟨S1x100, p3⟩] h rfl rfl
    (fun k => if k = 0 then p0 else if k = 1 then p1 else if k = 2 then p2 else p3)
    (by intro k hk; match k, hk with | 0, _ => rfl | 1, _ => rfl | 2, _ => rfl | 3, _ => rfl)
    (ix2 r d) (ix2 (0 : Fin 1) d)
    (by intro b hb; match b, hb with | ⟨0, _⟩, hb => exact absurd (Fin.ext rfl) hb | ⟨1, _⟩, _ => rfl)

theorem stack_at0 {α : Type} (p0 p1 p2 p3 : S1x100.Idx → α)
    (h : Shape.Concatenates [S1x100, S1x100, S1x100, S1x100] S4x100 0) (d : Fin 100) :
    concatenate S4x100 0 [⟨S1x100, p0⟩, ⟨S1x100, p1⟩, ⟨S1x100, p2⟩, ⟨S1x100, p3⟩] h (ix2 (0 : Fin 4) d)
      = p0 (ix2 (0 : Fin 1) d) :=
  (stack_at_aux p0 p1 p2 p3 h (0 : Fin 4) d).trans rfl

theorem stack_at1 {α : Type} (p0 p1 p2 p3 : S1x100.Idx → α)
    (h : Shape.Concatenates [S1x100, S1x100, S1x100, S1x100] S4x100 0) (d : Fin 100) :
    concatenate S4x100 0 [⟨S1x100, p0⟩, ⟨S1x100, p1⟩, ⟨S1x100, p2⟩, ⟨S1x100, p3⟩] h (ix2 (1 : Fin 4) d)
      = p1 (ix2 (0 : Fin 1) d) :=
  (stack_at_aux p0 p1 p2 p3 h (1 : Fin 4) d).trans rfl

theorem stack_at2 {α : Type} (p0 p1 p2 p3 : S1x100.Idx → α)
    (h : Shape.Concatenates [S1x100, S1x100, S1x100, S1x100] S4x100 0) (d : Fin 100) :
    concatenate S4x100 0 [⟨S1x100, p0⟩, ⟨S1x100, p1⟩, ⟨S1x100, p2⟩, ⟨S1x100, p3⟩] h (ix2 (2 : Fin 4) d)
      = p2 (ix2 (0 : Fin 1) d) :=
  (stack_at_aux p0 p1 p2 p3 h (2 : Fin 4) d).trans rfl

theorem stack_at3 {α : Type} (p0 p1 p2 p3 : S1x100.Idx → α)
    (h : Shape.Concatenates [S1x100, S1x100, S1x100, S1x100] S4x100 0) (d : Fin 100) :
    concatenate S4x100 0 [⟨S1x100, p0⟩, ⟨S1x100, p1⟩, ⟨S1x100, p2⟩, ⟨S1x100, p3⟩] h (ix2 (3 : Fin 4) d)
      = p3 (ix2 (0 : Fin 1) d) :=
  (stack_at_aux p0 p1 p2 p3 h (3 : Fin 4) d).trans rfl

theorem nary_stack_at0 (F : Valuation τ sig (Elt Ideal)) (hxs hy) (d : Fin 100) :
    (StableHlo.nary ![main_v46, main_v47, main_v48, main_v49] main_v50
        (fun u => concatenate S4x100 0 [⟨S1x100, u 0⟩, ⟨S1x100, u 1⟩, ⟨S1x100, u 2⟩, ⟨S1x100, u 3⟩]
          concatenates_S1x100_S1x100_S1x100_S1x100_S4x100_d0) hxs hy).result F (Proc.devRef .tc main_v50) (ix2 (0 : Fin 4) d)
      = F (Proc.devRef .tc main_v46) (ix2 (0 : Fin 1) d) := by
  rw [StableHlo.nary4_result]
  exact stack_at0 _ _ _ _ _ d

/-- Row 0 of the stack of relation vectors is relation vector 0. -/
theorem stack_row0 (d : Fin 100) : V1 m ρ c main_v50 (ix2 (0 : Fin 4) d) = (m ((c.tc : Thread nD τ).loc main_arg9)) (ix1 d) := by
  show StableHlo.after hostOps0 _ (Proc.devRef .tc main_v50) _ = _
  simp only [StableHlo.after_cons, StableHlo.after_nil]
  refine (nary_stack_at0 _ _ _ d).trans ?_
  after_results_simp
  exact broadcastInDim_apply _ bcast_S100_S1x100_1 _ _ (ix1 d) (fun a => match a with
    | ⟨0, _⟩ => by show d.val = if (100 : Nat) = 1 then 0 else d.val; rw [if_neg (by decide)])

theorem nary_stack_at1 (F : Valuation τ sig (Elt Ideal)) (hxs hy) (d : Fin 100) :
    (StableHlo.nary ![main_v46, main_v47, main_v48, main_v49] main_v50
        (fun u => concatenate S4x100 0 [⟨S1x100, u 0⟩, ⟨S1x100, u 1⟩, ⟨S1x100, u 2⟩, ⟨S1x100, u 3⟩]
          concatenates_S1x100_S1x100_S1x100_S1x100_S4x100_d0) hxs hy).result F (Proc.devRef .tc main_v50) (ix2 (1 : Fin 4) d)
      = F (Proc.devRef .tc main_v47) (ix2 (0 : Fin 1) d) := by
  rw [StableHlo.nary4_result]
  exact stack_at1 _ _ _ _ _ d

/-- Row 1 of the stack of relation vectors is relation vector 1. -/
theorem stack_row1 (d : Fin 100) : V1 m ρ c main_v50 (ix2 (1 : Fin 4) d) = (m ((c.tc : Thread nD τ).loc main_arg10)) (ix1 d) := by
  show StableHlo.after hostOps0 _ (Proc.devRef .tc main_v50) _ = _
  simp only [StableHlo.after_cons, StableHlo.after_nil]
  refine (nary_stack_at1 _ _ _ d).trans ?_
  after_results_simp
  exact broadcastInDim_apply _ bcast_S100_S1x100_1 _ _ (ix1 d) (fun a => match a with
    | ⟨0, _⟩ => by show d.val = if (100 : Nat) = 1 then 0 else d.val; rw [if_neg (by decide)])

theorem nary_stack_at2 (F : Valuation τ sig (Elt Ideal)) (hxs hy) (d : Fin 100) :
    (StableHlo.nary ![main_v46, main_v47, main_v48, main_v49] main_v50
        (fun u => concatenate S4x100 0 [⟨S1x100, u 0⟩, ⟨S1x100, u 1⟩, ⟨S1x100, u 2⟩, ⟨S1x100, u 3⟩]
          concatenates_S1x100_S1x100_S1x100_S1x100_S4x100_d0) hxs hy).result F (Proc.devRef .tc main_v50) (ix2 (2 : Fin 4) d)
      = F (Proc.devRef .tc main_v48) (ix2 (0 : Fin 1) d) := by
  rw [StableHlo.nary4_result]
  exact stack_at2 _ _ _ _ _ d

/-- Row 2 of the stack of relation vectors is relation vector 2. -/
theorem stack_row2 (d : Fin 100) : V1 m ρ c main_v50 (ix2 (2 : Fin 4) d) = (m ((c.tc : Thread nD τ).loc main_arg11)) (ix1 d) := by
  show StableHlo.after hostOps0 _ (Proc.devRef .tc main_v50) _ = _
  simp only [StableHlo.after_cons, StableHlo.after_nil]
  refine (nary_stack_at2 _ _ _ d).trans ?_
  after_results_simp
  exact broadcastInDim_apply _ bcast_S100_S1x100_1 _ _ (ix1 d) (fun a => match a with
    | ⟨0, _⟩ => by show d.val = if (100 : Nat) = 1 then 0 else d.val; rw [if_neg (by decide)])

theorem nary_stack_at3 (F : Valuation τ sig (Elt Ideal)) (hxs hy) (d : Fin 100) :
    (StableHlo.nary ![main_v46, main_v47, main_v48, main_v49] main_v50
        (fun u => concatenate S4x100 0 [⟨S1x100, u 0⟩, ⟨S1x100, u 1⟩, ⟨S1x100, u 2⟩, ⟨S1x100, u 3⟩]
          concatenates_S1x100_S1x100_S1x100_S1x100_S4x100_d0) hxs hy).result F (Proc.devRef .tc main_v50) (ix2 (3 : Fin 4) d)
      = F (Proc.devRef .tc main_v49) (ix2 (0 : Fin 1) d) := by
  rw [StableHlo.nary4_result]
  exact stack_at3 _ _ _ _ _ d

/-- Row 3 of the stack of relation vectors is relation vector 3. -/
theorem stack_row3 (d : Fin 100) : V1 m ρ c main_v50 (ix2 (3 : Fin 4) d) = (m ((c.tc : Thread nD τ).loc main_arg12)) (ix1 d) := by
  show StableHlo.after hostOps0 _ (Proc.devRef .tc main_v50) _ = _
  simp only [StableHlo.after_cons, StableHlo.after_nil]
  refine (nary_stack_at3 _ _ _ d).trans ?_
  after_results_simp
  exact broadcastInDim_apply _ bcast_S100_S1x100_1 _ _ (ix1 d) (fun a => match a with
    | ⟨0, _⟩ => by show d.val = if (100 : Nat) = 1 then 0 else d.val; rw [if_neg (by decide)])

end Cert.KernelIdeal.Host

end
-- ==== Proof.KIHostSeq.lean ====
import proofs.«130248_j9509057593869_1_alg».proof.Proof.KIData
import proofs.«130248_j9509057593869_1_alg».proof.Proof.Gen.ReferenceIdeal.Read

/-!
# The kernel program's gathered residual is the reference's

The first stretch of host operations computes the diffused item table, pads it and gathers it at the item indices,
operation for operation as the reference does.
-/

noncomputable section

namespace Cert.KernelIdeal.Host

open Idealize.ShloMosaic Idealize.ShloMosaic.ValueIdx Cert.KernelIdeal Cert.KernelIdeal.Gen Cert.KernelIdeal.Frm

variable (m : (ℓ : Loc nD τ sig) → Buf (Elt Ideal) ℓ) (ρ : Dev nD → PrngReg) (c : Dev nD)

/-- A gather from a two-piece concatenation: equal pieces and equal indices give equal results. -/
theorem gather_concat_congr
    (a a' : (⟨S1x100, .f32⟩ : BufTy).Contents (Elt Ideal)) (b b' : (⟨S40000x100, .f32⟩ : BufTy).Contents (Elt Ideal))
    (i i' : (⟨S128x70x1, .i32⟩ : BufTy).Contents (Elt Ideal)) (ha : a = a') (hb : b = b') (hi : i = i') :
    Host.gather gather_S40001x100_S128x70x1_S128x70x100_2_0_n_n_0_2_1100
        (concatenate S40001x100 0 [⟨S1x100, a⟩, ⟨S40000x100, b⟩] concatenates_S1x100_S40000x100_S40001x100_d0) i
      = Host.gather gather_S40001x100_S128x70x1_S128x70x100_2_0_n_n_0_2_1100
        (concatenate S40001x100 0 [⟨S1x100, a'⟩, ⟨S40000x100, b'⟩] concatenates_S1x100_S40000x100_S40001x100_d0) i' := by
  subst ha hb hi; rfl

/-- The gathered residual: the first stretch applies the reference's own operations to the launch contents. -/
theorem seq_eq : V1 m ρ c main_v45
    = Cert.ReferenceIdeal.Read.val_main_v125 (F := Ideal) (m ((c.tc : Thread nD τ).loc main_arg4)) (m ((c.tc : Thread nD τ).loc main_arg8)) (m ((c.tc : Thread nD τ).loc main_arg13)) (m ((c.tc : Thread nD τ).loc main_arg14)) (m ((c.tc : Thread nD τ).loc main_arg15)) := by
  show StableHlo.after hostOps0 _ (Proc.devRef .tc main_v45) = _
  after_results_simp
  refine (gather_concat_congr _ (Cert.ReferenceIdeal.Read.val_main_v117 (F := Ideal)) _
    (Cert.ReferenceIdeal.Read.val_main_v97 (F := Ideal) (m ((c.tc : Thread nD τ).loc main_arg8)) (m ((c.tc : Thread nD τ).loc main_arg13)) (m ((c.tc : Thread nD τ).loc main_arg14)) (m ((c.tc : Thread nD τ).loc main_arg15))) _
    (Cert.ReferenceIdeal.Read.val_main_v124 (F := Ideal) (m ((c.tc : Thread nD τ).loc main_arg4))) ?_ ?_ ?_).trans ?_
  · after_results_simp; rfl
  · after_results_simp; rfl
  · rfl
  · rfl

end Cert.KernelIdeal.Host

end
-- ==== Proof.KIOut.lean ====
import proofs.«130248_j9509057593869_1_alg».proof.Proof.KIData
import proofs.«130248_j9509057593869_1_alg».proof.Proof.KIBlocks0
import proofs.«130248_j9509057593869_1_alg».proof.Proof.KIBlocks1
import proofs.«130248_j9509057593869_1_alg».proof.Proof.KIHost
import proofs.«130248_j9509057593869_1_alg».proof.Proof.KIHostSeq
import proofs.«130248_j9509057593869_1_alg».proof.Proof.Gen.KernelIdeal.Regions
import proofs.«130248_j9509057593869_1_alg».proof.Proof.Spec

/-!
# The two results of the kernel program, as functions of its arguments

After the last boundary the first result's buffer still holds what the attention pipeline's 128 write-backs left (no
later operation writes it), which is the specification's first result of the gathered embeddings, the labels, the
four relation vectors and the gathered residual; the second result's buffer holds what the session pipeline's one
write-back left, the specification's second result of `D`, `A` and the initial session embeddings. The gathered
arrays and the initial session embeddings are the reference's own host stages of the same arguments.
-/

noncomputable section

namespace Cert.KernelIdeal.Val

open Idealize.ShloMosaic Idealize.ShloMosaic.ValueIdx
open Cert.KernelIdeal Cert.KernelIdeal.Gen Cert.KernelIdeal.Frm Cert.KernelIdeal.Host

variable (m : (ℓ : Loc nD τ sig) → Buf (Elt Ideal) ℓ) (ρ : Dev nD → PrngReg) (c : Dev nD)

/-- Row `k` of the stack the first pipeline is entered with is the `k`-th relation vector. -/
theorem stackRow_eq0 : stackRow (V1 m ρ c main_v50) 0 = m ((c.tc : Thread nD τ).loc main_arg9) :=
  funext fun x => (stack_row0 m ρ c (x 0)).trans (congrArg _ (eq_ix1 x).symm)
theorem stackRow_eq1 : stackRow (V1 m ρ c main_v50) 1 = m ((c.tc : Thread nD τ).loc main_arg10) :=
  funext fun x => (stack_row1 m ρ c (x 0)).trans (congrArg _ (eq_ix1 x).symm)
theorem stackRow_eq2 : stackRow (V1 m ρ c main_v50) 2 = m ((c.tc : Thread nD τ).loc main_arg11) :=
  funext fun x => (stack_row2 m ρ c (x 0)).trans (congrArg _ (eq_ix1 x).symm)
theorem stackRow_eq3 : stackRow (V1 m ρ c main_v50) 3 = m ((c.tc : Thread nD τ).loc main_arg12) :=
  funext fun x => (stack_row3 m ρ c (x 0)).trans (congrArg _ (eq_ix1 x).symm)

/-- The first result after the run. -/
theorem out0_eq :
    W4 m ρ c (Proc.devRef .tc main_v51)
      = Cert.Spec.att
          (Cert.ReferenceIdeal.Read.val_main_v6 (F := Ideal) (m ((c.tc : Thread nD τ).loc main_arg0)) (m ((c.tc : Thread nD τ).loc main_arg8)))
          (m ((c.tc : Thread nD τ).loc main_arg1))
          (m ((c.tc : Thread nD τ).loc main_arg9)) (m ((c.tc : Thread nD τ).loc main_arg10))
          (m ((c.tc : Thread nD τ).loc main_arg11)) (m ((c.tc : Thread nD τ).loc main_arg12))
          (Cert.ReferenceIdeal.Read.val_main_v125 (F := Ideal) (m ((c.tc : Thread nD τ).loc main_arg4)) (m ((c.tc : Thread nD τ).loc main_arg8))
            (m ((c.tc : Thread nD τ).loc main_arg13)) (m ((c.tc : Thread nD τ).loc main_arg14)) (m ((c.tc : Thread nD τ).loc main_arg15))) := by
  have e1 : W4 m ρ c (Proc.devRef .tc main_v51) = W3 m ρ c (Proc.devRef .tc main_v51) := W4_of_ne m ρ c main_v51 (by decide)
  have e2 : W3 m ρ c (Proc.devRef .tc main_v51) = W2 m ρ c (Proc.devRef .tc main_v51) :=
    StableHlo.after_of_writes_sub hostOps1 _ hostOps1_writes (by decide)
  have e3 : W2 m ρ c (Proc.devRef .tc main_v51) = (dat0 (F := Ideal) (V1 m ρ) c).arrAt 4 cfg0.N := W2_arr m ρ c 4
  rw [e1, e2, e3, final0, stackRow_eq0, stackRow_eq1, stackRow_eq2, stackRow_eq3, h_eq, seq_eq, edge_eq]

/-- The second result after the run. -/
theorem out1_eq :
    W4 m ρ c (Proc.devRef .tc main_v64)
      = Cert.Spec.sess (m ((c.tc : Thread nD τ).loc main_arg5)) (m ((c.tc : Thread nD τ).loc main_arg6))
          (Cert.ReferenceIdeal.Read.val_main_v109 (F := Ideal) (m ((c.tc : Thread nD τ).loc main_arg4)) (m ((c.tc : Thread nD τ).loc main_arg7))
            (m ((c.tc : Thread nD τ).loc main_arg8))) := by
  have e1 : W4 m ρ c (Proc.devRef .tc main_v64) = (dat1 (F := Ideal) (V3 m ρ) c).arrAt 3 cfg1.N := W4_arr m ρ c 3
  rw [e1, final1, D_eq, A_eq, s0_eq]

end Cert.KernelIdeal.Val

end
-- ==== Proof.RefAtt.lean ====
import proofs.«130248_j9509057593869_1_alg».proof.Proof.Gen.ReferenceIdeal.Read
import proofs.«130248_j9509057593869_1_alg».proof.Proof.Spec

noncomputable section

namespace Cert.RefSide

open Cert.ReferenceIdeal Cert.ReferenceIdeal.Gen Cert.ReferenceIdeal.Read Idealize.ShloMosaic Idealize.ShloMosaic.ValueIdx

/-- The relation vector, spread over sessions and items, read at coordinates. -/
theorem v8_at (x9 : (⟨S100, .f32⟩ : BufTy).Contents (Elt Ideal)) (b : Fin 128) (i : Fin 70) (d : Fin 100) :
    val_main_v8 (F := Ideal) x9 (ix3 b i d) = x9 (ix1 d) := by
  rw [val_main_v8_apply, val_main_v7_apply]
  exact congrArg x9 (funext fun a => Fin.ext (by match a with | ⟨0, _⟩ => rfl))

/-- The raw score of this relation vector is the sum over features. -/
theorem v10_at (x0 : (⟨S128x70, .i32⟩ : BufTy).Contents (Elt Ideal)) (x8 : (⟨S40000x100, .f32⟩ : BufTy).Contents (Elt Ideal)) (x9 : (⟨S100, .f32⟩ : BufTy).Contents (Elt Ideal))
    (b : Fin 128) (i j : Fin 70) :
    val_main_v10 (F := Ideal) x0 x8 x9 (ix3 b i j) = Cert.Spec.score (val_main_v6 (F := Ideal) x0 x8) x9 b i j := by
  rw [val_main_v10_apply]
  unfold Cert.Spec.score
  refine Finset.sum_congr rfl fun k _ => ?_
  have el : lidx_main_v10 (ix3 b i j) k = ix3 b i k :=
    funext fun a => Fin.ext (by match a with | ⟨0, _⟩ => rfl | ⟨1, _⟩ => rfl | ⟨2, _⟩ => rfl)
  have er : ridx_main_v10 (ix3 b i j) k = ix3 b j k :=
    funext fun a => Fin.ext (by match a with | ⟨0, _⟩ => rfl | ⟨1, _⟩ => rfl | ⟨2, _⟩ => rfl)
  rw [el, er, val_main_v9_apply, v8_at]
  rfl

/-- The rectified score of this relation vector. -/
theorem v15_at (x0 : (⟨S128x70, .i32⟩ : BufTy).Contents (Elt Ideal)) (x8 : (⟨S40000x100, .f32⟩ : BufTy).Contents (Elt Ideal)) (x9 : (⟨S100, .f32⟩ : BufTy).Contents (Elt Ideal))
    (b : Fin 128) (i j : Fin 70) :
    val_main_v15 (F := Ideal) x0 x8 x9 (ix3 b i j)
      = Cert.Spec.leaky (Cert.Spec.score (val_main_v6 (F := Ideal) x0 x8) x9 b i j) := by
  rw [val_main_v15_apply, val_main_v12_apply, val_main_v14_apply, val_main_v11_apply, val_main_v13_apply,
    val_main_cst_apply, val_main_cst_1_apply, v10_at]
  rfl

/-- The relation vector, spread over sessions and items, read at coordinates. -/
theorem v17_at (x10 : (⟨S100, .f32⟩ : BufTy).Contents (Elt Ideal)) (b : Fin 128) (i : Fin 70) (d : Fin 100) :
    val_main_v17 (F := Ideal) x10 (ix3 b i d) = x10 (ix1 d) := by
  rw [val_main_v17_apply, val_main_v16_apply]
  exact congrArg x10 (funext fun a => Fin.ext (by match a with | ⟨0, _⟩ => rfl))

/-- The raw score of this relation vector is the sum over features. -/
theorem v19_at (x0 : (⟨S128x70, .i32⟩ : BufTy).Contents (Elt Ideal)) (x8 : (⟨S40000x100, .f32⟩ : BufTy).Contents (Elt Ideal)) (x10 : (⟨S100, .f32⟩ : BufTy).Contents (Elt Ideal))
    (b : Fin 128) (i j : Fin 70) :
    val_main_v19 (F := Ideal) x0 x8 x10 (ix3 b i j) = Cert.Spec.score (val_main_v6 (F := Ideal) x0 x8) x10 b i j := by
  rw [val_main_v19_apply]
  unfold Cert.Spec.score
  refine Finset.sum_congr rfl fun k _ => ?_
  have el : lidx_main_v19 (ix3 b i j) k = ix3 b i k :=
    funext fun a => Fin.ext (by match a with | ⟨0, _⟩ => rfl | ⟨1, _⟩ => rfl | ⟨2, _⟩ => rfl)
  have er : ridx_main_v19 (ix3 b i j) k = ix3 b j k :=
    funext fun a => Fin.ext (by match a with | ⟨0, _⟩ => rfl | ⟨1, _⟩ => rfl | ⟨2, _⟩ => rfl)
  rw [el, er, val_main_v18_apply, v17_at]
  rfl

/-- The rectified score of this relation vector. -/
theorem v24_at (x0 : (⟨S128x70, .i32⟩ : BufTy).Contents (Elt Ideal)) (x8 : (⟨S40000x100, .f32⟩ : BufTy).Contents (Elt Ideal)) (x10 : (⟨S100, .f32⟩ : BufTy).Contents (Elt Ideal))
    (b : Fin 128) (i j : Fin 70) :
    val_main_v24 (F := Ideal) x0 x8 x10 (ix3 b i j)
      = Cert.Spec.leaky (Cert.Spec.score (val_main_v6 (F := Ideal) x0 x8) x10 b i j) := by
  rw [val_main_v24_apply, val_main_v21_apply, val_main_v23_apply, val_main_v20_apply, val_main_v22_apply,
    val_main_cst_2_apply, val_main_cst_3_apply, v19_at]
  rfl

/-- The relation vector, spread over sessions and items, read at coordinates. -/
theorem v26_at (x11 : (⟨S100, .f32⟩ : BufTy).Contents (Elt Ideal)) (b : Fin 128) (i : Fin 70) (d : Fin 100) :
    val_main_v26 (F := Ideal) x11 (ix3 b i d) = x11 (ix1 d) := by
  rw [val_main_v26_apply, val_main_v25_apply]
  exact congrArg x11 (funext fun a => Fin.ext (by match a with | ⟨0, _⟩ => rfl))

/-- The raw score of this relation vector is the sum over features. -/
theorem v28_at (x0 : (⟨S128x70, .i32⟩ : BufTy).Contents (Elt Ideal)) (x8 : (⟨S40000x100, .f32⟩ : BufTy).Contents (Elt Ideal)) (x11 : (⟨S100, .f32⟩ : BufTy).Contents (Elt Ideal))
    (b : Fin 128) (i j : Fin 70) :
    val_main_v28 (F := Ideal) x0 x8 x11 (ix3 b i j) = Cert.Spec.score (val_main_v6 (F := Ideal) x0 x8) x11 b i j := by
  rw [val_main_v28_apply]
  unfold Cert.Spec.score
  refine Finset.sum_congr rfl fun k _ => ?_
  have el : lidx_main_v28 (ix3 b i j) k = ix3 b i k :=
    funext fun a => Fin.ext (by match a with | ⟨0, _⟩ => rfl | ⟨1, _⟩ => rfl | ⟨2, _⟩ => rfl)
  have er : ridx_main_v28 (ix3 b i j) k = ix3 b j k :=
    funext fun a => Fin.ext (by match a with | ⟨0, _⟩ => rfl | ⟨1, _⟩ => rfl | ⟨2, _⟩ => rfl)
  rw [el, er, val_main_v27_apply, v26_at]
  rfl

/-- The rectified score of this relation vector. -/
theorem v33_at (x0 : (⟨S128x70, .i32⟩ : BufTy).Contents (Elt Ideal)) (x8 : (⟨S40000x100, .f32⟩ : BufTy).Contents (Elt Ideal)) (x11 : (⟨S100, .f32⟩ : BufTy).Contents (Elt Ideal))
    (b : Fin 128) (i j : Fin 70) :
    val_main_v33 (F := Ideal) x0 x8 x11 (ix3 b i j)
      = Cert.Spec.leaky (Cert.Spec.score (val_main_v6 (F := Ideal) x0 x8) x11 b i j) := by
  rw [val_main_v33_apply, val_main_v30_apply, val_main_v32_apply, val_main_v29_apply, val_main_v31_apply,
    val_main_cst_4_apply, val_main_cst_5_apply, v28_at]
  rfl

/-- The relation vector, spread over sessions and items, read at coordinates. -/
theorem v35_at (x12 : (⟨S100, .f32⟩ : BufTy).Contents (Elt Ideal)) (b : Fin 128) (i : Fin 70) (d : Fin 100) :
    val_main_v35 (F := Ideal) x12 (ix3 b i d) = x12 (ix1 d) := by
  rw [val_main_v35_apply, val_main_v34_apply]
  exact congrArg x12 (funext fun a => Fin.ext (by match a with | ⟨0, _⟩ => rfl))

/-- The raw score of this relation vector is the sum over features. -/
theorem v37_at (x0 : (⟨S128x70, .i32⟩ : BufTy).Contents (Elt Ideal)) (x8 : (⟨S40000x100, .f32⟩ : BufTy).Contents (Elt Ideal)) (x12 : (⟨S100, .f32⟩ : BufTy).Contents (Elt Ideal))
    (b : Fin 128) (i j : Fin 70) :
    val_main_v37 (F := Ideal) x0 x8 x12 (ix3 b i j) = Cert.Spec.score (val_main_v6 (F := Ideal) x0 x8) x12 b i j := by
  rw [val_main_v37_apply]
  unfold Cert.Spec.score
  refine Finset.sum_congr rfl fun k _ => ?_
  have el : lidx_main_v37 (ix3 b i j) k = ix3 b i k :=
    funext fun a => Fin.ext (by match a with | ⟨0, _⟩ => rfl | ⟨1, _⟩ => rfl | ⟨2, _⟩ => rfl)
  have er : ridx_main_v37 (ix3 b i j) k = ix3 b j k :=
    funext fun a => Fin.ext (by match a with | ⟨0, _⟩ => rfl | ⟨1, _⟩ => rfl | ⟨2, _⟩ => rfl)
  rw [el, er, val_main_v36_apply, v35_at]
  rfl

/-- The rectified score of this relation vector. -/
theorem v42_at (x0 : (⟨S128x70, .i32⟩ : BufTy).Contents (Elt Ideal)) (x8 : (⟨S40000x100, .f32⟩ : BufTy).Contents (Elt Ideal)) (x12 : (⟨S100, .f32⟩ : BufTy).Contents (Elt Ideal))
    (b : Fin 128) (i j : Fin 70) :
    val_main_v42 (F := Ideal) x0 x8 x12 (ix3 b i j)
      = Cert.Spec.leaky (Cert.Spec.score (val_main_v6 (F := Ideal) x0 x8) x12 b i j) := by
  rw [val_main_v42_apply, val_main_v39_apply, val_main_v41_apply, val_main_v38_apply, val_main_v40_apply,
    val_main_cst_6_apply, val_main_cst_7_apply, v37_at]
  rfl

/-- The logit: the rectified score of the relation the label names, a later label first. -/
theorem v55_at (x0 : (⟨S128x70, .i32⟩ : BufTy).Contents (Elt Ideal)) (x1 : (⟨S128x70x70, .i32⟩ : BufTy).Contents (Elt Ideal)) (x8 : (⟨S40000x100, .f32⟩ : BufTy).Contents (Elt Ideal))
    (x9 x10 x11 x12 : (⟨S100, .f32⟩ : BufTy).Contents (Elt Ideal)) (b : Fin 128) (i j : Fin 70) :
    val_main_v55 (F := Ideal) x0 x1 x8 x9 x10 x11 x12 (ix3 b i j) = Cert.Spec.logit (val_main_v6 (F := Ideal) x0 x8) x1 x9 x10 x11 x12 b i j := by
  rw [val_main_v55_apply, val_main_v54_apply, val_main_v53_apply, val_main_c_12_apply,
    val_main_v52_apply, val_main_v51_apply, val_main_v50_apply, val_main_c_11_apply,
    val_main_v49_apply, val_main_v48_apply, val_main_v47_apply, val_main_c_10_apply,
    val_main_v46_apply, val_main_v45_apply, val_main_v44_apply, val_main_c_9_apply,
    val_main_v43_apply, val_main_cst_8_apply, v15_at, v24_at, v33_at, v42_at]
  rfl

/-- The index over `(b, i)` with coordinate `k` inserted on the last axis. -/
theorem lift_last (h : S128x70x70.Reduces [2] S128x70) (b : Fin 128) (i k : Fin 70) :
    h.lift (ix2 b i) k = ix3 b i k :=
  funext fun a => Fin.ext (by match a with | ⟨0, _⟩ => rfl | ⟨1, _⟩ => rfl | ⟨2, _⟩ => rfl)

/-- The fold of the maximum along a row of logits. -/
theorem v56_at (x0 : (⟨S128x70, .i32⟩ : BufTy).Contents (Elt Ideal)) (x1 : (⟨S128x70x70, .i32⟩ : BufTy).Contents (Elt Ideal)) (x8 : (⟨S40000x100, .f32⟩ : BufTy).Contents (Elt Ideal))
    (x9 x10 x11 x12 : (⟨S100, .f32⟩ : BufTy).Contents (Elt Ideal)) (b : Fin 128) (i : Fin 70) :
    val_main_v56 (F := Ideal) x0 x1 x8 x9 x10 x11 x12 (ix2 b i)
      = (Finset.univ : Finset (Fin 70)).fold max (Ideal.ofBits .f32 0xFF800000#32)
          (fun j => Cert.Spec.logit (val_main_v6 (F := Ideal) x0 x8) x1 x9 x10 x11 x12 b i j) := by
  unfold val_main_v56
  haveI : Std.Commutative (FloatOps.maximumf (F := Ideal) (φ := .f32)) := ⟨fun p q => max_comm p q⟩
  haveI : Std.Associative (FloatOps.maximumf (F := Ideal) (φ := .f32)) := ⟨fun p q r => max_assoc p q r⟩
  rw [Host.reduce_eq_fold_single FloatOps.maximumf _ _ reducesTo_S128x70x70_S128x70_d2 (by decide) h_S_ (ix2 b i),
    val_main_cst_13_apply]
  refine Finset.fold_congr fun k _ => ?_
  exact (congrArg (val_main_v55 (F := Ideal) x0 x1 x8 x9 x10 x11 x12) (lift_last _ b i k)).trans
    (v55_at x0 x1 x8 x9 x10 x11 x12 b i k)

/-- The row maximum. -/
theorem v58_at (x0 : (⟨S128x70, .i32⟩ : BufTy).Contents (Elt Ideal)) (x1 : (⟨S128x70x70, .i32⟩ : BufTy).Contents (Elt Ideal)) (x8 : (⟨S40000x100, .f32⟩ : BufTy).Contents (Elt Ideal))
    (x9 x10 x11 x12 : (⟨S100, .f32⟩ : BufTy).Contents (Elt Ideal)) (b : Fin 128) (i : Fin 70) :
    val_main_v58 (F := Ideal) x0 x1 x8 x9 x10 x11 x12 (ix2 b i) = Cert.Spec.rowMax (val_main_v6 (F := Ideal) x0 x8) x1 x9 x10 x11 x12 b i := by
  rw [val_main_v58_apply, val_main_v57_apply, val_main_cst_14_apply, v56_at]
  rfl

/-- The shifted exponential. -/
theorem v62_at (x0 : (⟨S128x70, .i32⟩ : BufTy).Contents (Elt Ideal)) (x1 : (⟨S128x70x70, .i32⟩ : BufTy).Contents (Elt Ideal)) (x8 : (⟨S40000x100, .f32⟩ : BufTy).Contents (Elt Ideal))
    (x9 x10 x11 x12 : (⟨S100, .f32⟩ : BufTy).Contents (Elt Ideal)) (b : Fin 128) (i j : Fin 70) :
    val_main_v62 (F := Ideal) x0 x1 x8 x9 x10 x11 x12 (ix3 b i j) = Cert.Spec.expo (val_main_v6 (F := Ideal) x0 x8) x1 x9 x10 x11 x12 b i j := by
  rw [val_main_v62_apply, val_main_v61_apply, val_main_v60_apply, val_main_v59_apply, v55_at]
  have e : idx_main_v59 (idx_main_v60 (ix3 b i j)) = ix2 b i :=
    funext fun a => Fin.ext (by match a with | ⟨0, _⟩ => rfl | ⟨1, _⟩ => rfl)
  rw [e, v58_at]
  rfl

/-- The row sum of the shifted exponentials. -/
theorem v63_at (x0 : (⟨S128x70, .i32⟩ : BufTy).Contents (Elt Ideal)) (x1 : (⟨S128x70x70, .i32⟩ : BufTy).Contents (Elt Ideal)) (x8 : (⟨S40000x100, .f32⟩ : BufTy).Contents (Elt Ideal))
    (x9 x10 x11 x12 : (⟨S100, .f32⟩ : BufTy).Contents (Elt Ideal)) (b : Fin 128) (i : Fin 70) :
    val_main_v63 (F := Ideal) x0 x1 x8 x9 x10 x11 x12 (ix2 b i) = ∑ j : Fin 70, Cert.Spec.expo (val_main_v6 (F := Ideal) x0 x8) x1 x9 x10 x11 x12 b i j := by
  rw [val_main_v63_apply, val_main_cst_15_apply, Ideal.ofBits_def, Ideal.ofBits_zero_f32, zero_add]
  refine Finset.sum_congr rfl fun k _ => ?_
  have e : idx_main_v63 (ix2 b i) k = ix3 b i k :=
    funext fun a => Fin.ext (by match a with | ⟨0, _⟩ => rfl | ⟨1, _⟩ => rfl | ⟨2, _⟩ => rfl)
  rw [e, v62_at]

/-- The attention weight. -/
theorem v66_at (x0 : (⟨S128x70, .i32⟩ : BufTy).Contents (Elt Ideal)) (x1 : (⟨S128x70x70, .i32⟩ : BufTy).Contents (Elt Ideal)) (x8 : (⟨S40000x100, .f32⟩ : BufTy).Contents (Elt Ideal))
    (x9 x10 x11 x12 : (⟨S100, .f32⟩ : BufTy).Contents (Elt Ideal)) (b : Fin 128) (i j : Fin 70) :
    val_main_v66 (F := Ideal) x0 x1 x8 x9 x10 x11 x12 (ix3 b i j) = Cert.Spec.weight (val_main_v6 (F := Ideal) x0 x8) x1 x9 x10 x11 x12 b i j := by
  rw [val_main_v66_apply, val_main_v65_apply, val_main_v64_apply, v62_at]
  have e : idx_main_v64 (idx_main_v65 (ix3 b i j)) = ix2 b i :=
    funext fun a => Fin.ext (by match a with | ⟨0, _⟩ => rfl | ⟨1, _⟩ => rfl)
  rw [e, v63_at]
  rfl

/-- The weighted sum of the session's embeddings. -/
theorem v67_at (x0 : (⟨S128x70, .i32⟩ : BufTy).Contents (Elt Ideal)) (x1 : (⟨S128x70x70, .i32⟩ : BufTy).Contents (Elt Ideal)) (x8 : (⟨S40000x100, .f32⟩ : BufTy).Contents (Elt Ideal))
    (x9 x10 x11 x12 : (⟨S100, .f32⟩ : BufTy).Contents (Elt Ideal)) (b : Fin 128) (i : Fin 70) (d : Fin 100) :
    val_main_v67 (F := Ideal) x0 x1 x8 x9 x10 x11 x12 (ix3 b i d)
      = ∑ j : Fin 70, Cert.Spec.weight (val_main_v6 (F := Ideal) x0 x8) x1 x9 x10 x11 x12 b i j * val_main_v6 (F := Ideal) x0 x8 (ix3 b j d) := by
  rw [val_main_v67_apply]
  refine Finset.sum_congr rfl fun k _ => ?_
  have el : lidx_main_v67 (ix3 b i d) k = ix3 b i k :=
    funext fun a => Fin.ext (by match a with | ⟨0, _⟩ => rfl | ⟨1, _⟩ => rfl | ⟨2, _⟩ => rfl)
  have er : ridx_main_v67 (ix3 b i d) k = ix3 b k d :=
    funext fun a => Fin.ext (by match a with | ⟨0, _⟩ => rfl | ⟨1, _⟩ => rfl | ⟨2, _⟩ => rfl)
  rw [el, er, v66_at]

/-- The reference's first result is the attention with a residual, over its own gathered embeddings and residual. -/
theorem ref_att (x0 : (⟨S128x70, .i32⟩ : BufTy).Contents (Elt Ideal)) (x1 : (⟨S128x70x70, .i32⟩ : BufTy).Contents (Elt Ideal)) (x4 : (⟨S128x70, .i32⟩ : BufTy).Contents (Elt Ideal))
    (x8 : (⟨S40000x100, .f32⟩ : BufTy).Contents (Elt Ideal)) (x9 x10 x11 x12 : (⟨S100, .f32⟩ : BufTy).Contents (Elt Ideal))
    (x13 x14 : (⟨S640000, .i32⟩ : BufTy).Contents (Elt Ideal)) (x15 : (⟨S640000, .f32⟩ : BufTy).Contents (Elt Ideal)) :
    val_main_v126 (F := Ideal) x0 x1 x4 x8 x9 x10 x11 x12 x13 x14 x15
      = Cert.Spec.att (val_main_v6 (F := Ideal) x0 x8) x1 x9 x10 x11 x12 (val_main_v125 (F := Ideal) x4 x8 x13 x14 x15) := by
  funext x
  obtain ⟨b, i, d, rfl⟩ : ∃ (b : Fin 128) (i : Fin 70) (d : Fin 100), x = ix3 b i d := ⟨x 0, x 1, x 2, eq_ix3 x⟩
  rw [Cert.Spec.att_ix3, val_main_v126_apply, v67_at]
  rfl

end Cert.RefSide

end
-- ==== Proof.RefSess.lean ====
import proofs.«130248_j9509057593869_1_alg».proof.Proof.Gen.ReferenceIdeal.Read
import proofs.«130248_j9509057593869_1_alg».proof.Proof.Spec

noncomputable section

namespace Cert.RefSide

open Cert.ReferenceIdeal Cert.ReferenceIdeal.Gen Cert.ReferenceIdeal.Read Idealize.ShloMosaic Idealize.ShloMosaic.ValueIdx

/-- The product of the two square factors. -/
theorem v110_at (x5 x6 : (⟨S128x128, .f32⟩ : BufTy).Contents (Elt Ideal)) (p q : Fin 128) :
    val_main_v110 (F := Ideal) x5 x6 (ix2 p q) = Cert.Spec.prodDA x5 x6 p q := by
  rw [val_main_v110_apply]
  show _ = ∑ k : Fin 128, _
  refine Finset.sum_congr rfl fun k _ => ?_
  have el : lidx_main_v110 (ix2 p q) k = ix2 p k :=
    funext fun a => Fin.ext (by match a with | ⟨0, _⟩ => rfl | ⟨1, _⟩ => rfl)
  have er : ridx_main_v110 (ix2 p q) k = ix2 k q :=
    funext fun a => Fin.ext (by match a with | ⟨0, _⟩ => rfl | ⟨1, _⟩ => rfl)
  rw [el, er]

/-- One hop of the session embeddings. -/
theorem v111_at (x4 : (⟨S128x70, .i32⟩ : BufTy).Contents (Elt Ideal)) (x5 x6 : (⟨S128x128, .f32⟩ : BufTy).Contents (Elt Ideal)) (x7 : (⟨S128x1, .f32⟩ : BufTy).Contents (Elt Ideal)) (x8 : (⟨S40000x100, .f32⟩ : BufTy).Contents (Elt Ideal)) (p : Fin 128) (d : Fin 100) :
    val_main_v111 (F := Ideal) x4 x5 x6 x7 x8 (ix2 p d) = Cert.Spec.hop x5 x6 (fun k e => val_main_v109 (F := Ideal) x4 x7 x8 (ix2 k e)) p d := by
  rw [val_main_v111_apply]
  show _ = ∑ k : Fin 128, _
  refine Finset.sum_congr rfl fun k _ => ?_
  have el : lidx_main_v111 (ix2 p d) k = ix2 p k :=
    funext fun a => Fin.ext (by match a with | ⟨0, _⟩ => rfl | ⟨1, _⟩ => rfl)
  have er : ridx_main_v111 (ix2 p d) k = ix2 k d :=
    funext fun a => Fin.ext (by match a with | ⟨0, _⟩ => rfl | ⟨1, _⟩ => rfl)
  rw [el, er, v110_at]

/-- The second hop. -/
theorem v113_at (x4 : (⟨S128x70, .i32⟩ : BufTy).Contents (Elt Ideal)) (x5 x6 : (⟨S128x128, .f32⟩ : BufTy).Contents (Elt Ideal)) (x7 : (⟨S128x1, .f32⟩ : BufTy).Contents (Elt Ideal)) (x8 : (⟨S40000x100, .f32⟩ : BufTy).Contents (Elt Ideal)) (p : Fin 128) (d : Fin 100) :
    val_main_v113 (F := Ideal) x4 x5 x6 x7 x8 (ix2 p d)
      = Cert.Spec.hop x5 x6 (Cert.Spec.hop x5 x6 (fun k e => val_main_v109 (F := Ideal) x4 x7 x8 (ix2 k e))) p d := by
  rw [val_main_v113_apply]
  show _ = ∑ k : Fin 128, _
  refine Finset.sum_congr rfl fun k _ => ?_
  have el : lidx_main_v113 (ix2 p d) k = ix2 p k :=
    funext fun a => Fin.ext (by match a with | ⟨0, _⟩ => rfl | ⟨1, _⟩ => rfl)
  have er : ridx_main_v113 (ix2 p d) k = ix2 k d :=
    funext fun a => Fin.ext (by match a with | ⟨0, _⟩ => rfl | ⟨1, _⟩ => rfl)
  rw [el, er, v110_at, v111_at]

/-- The reference's second result is two hops of diffusion of its own initial session embeddings. -/
theorem ref_sess (x4 : (⟨S128x70, .i32⟩ : BufTy).Contents (Elt Ideal)) (x5 x6 : (⟨S128x128, .f32⟩ : BufTy).Contents (Elt Ideal)) (x7 : (⟨S128x1, .f32⟩ : BufTy).Contents (Elt Ideal)) (x8 : (⟨S40000x100, .f32⟩ : BufTy).Contents (Elt Ideal)) :
    val_main_v116 (F := Ideal) x4 x5 x6 x7 x8 = Cert.Spec.sess x5 x6 (val_main_v109 (F := Ideal) x4 x7 x8) := by
  funext x
  obtain ⟨p, d, rfl⟩ : ∃ (p : Fin 128) (d : Fin 100), x = ix2 p d := ⟨x 0, x 1, eq_ix2 x⟩
  rw [Cert.Spec.sess_ix2, val_main_v116_apply, val_main_v115_apply, val_main_cst_27_apply, val_main_v114_apply,
    val_main_v112_apply, v111_at, v113_at]
  rfl

end Cert.RefSide

end
-- ==== Proof.lean ====
/-
  The kernel program — host operations, an attention pipeline over the 128 sessions, host operations, a session-diffusion
  pipeline — against its reference, at the ideal values.

  Frames.  Each pipeline's body loads its input blocks whole, computes, and stores its one output block whole; with the
  proof data "inputs stay at their blocks, the output block is the body's result of the input blocks" the body meets its
  obligation at every point, and the program is run segment by segment — a stretch of host operations folds its
  operations into the buffers' contents, a pipeline replaces its output array by what its write-backs leave — so that
  every buffer ends at the last boundary's contents; no segment writes an argument.  The same text serves the word-level
  program and the idealized one.  The reference is a straight line of host operations.

  Values.  The attention body at an entry is the specification's first result (scores by the four relation vectors, the
  leaky rectifier, the labels' selection, the row-wise shifted exponentials and their normalisation, the weighted sum,
  the residual), the 128 blocks fill the first result's array; the session body is the specification's second result,
  `(s + M s + M (M s)) / 3` with `M = D · A`.  The reference's stages read the same two functions.  The gathered
  embeddings, the gathered residual and the initial session embeddings are computed by the same host operations in
  both programs and are carried as the reference's own stages, never opened.  No law of the extended reals beyond
  `0 + x = x` is used, so the precondition is not consulted.
-/
import proofs.«130248_j9509057593869_1_alg».proof.Defs
import proofs.«130248_j9509057593869_1_alg».proof.Proof.Gen.Kernel
import proofs.«130248_j9509057593869_1_alg».proof.Proof.Gen.KernelIdeal
import proofs.«130248_j9509057593869_1_alg».proof.Proof.Gen.ReferenceIdeal
import proofs.«130248_j9509057593869_1_alg».proof.Proof.Gen.Pre_finite_inputs
import proofs.«130248_j9509057593869_1_alg».proof.Proof.Gen.ReferenceIdeal.Run
import proofs.«130248_j9509057593869_1_alg».proof.Proof.Gen.ReferenceIdeal.Read
import proofs.«130248_j9509057593869_1_alg».proof.Proof.KRun
import proofs.«130248_j9509057593869_1_alg».proof.Proof.KBody0
import proofs.«130248_j9509057593869_1_alg».proof.Proof.KBody1
import proofs.«130248_j9509057593869_1_alg».proof.Proof.KIRun
import proofs.«130248_j9509057593869_1_alg».proof.Proof.KIBody0
import proofs.«130248_j9509057593869_1_alg».proof.Proof.KIBody1
import proofs.«130248_j9509057593869_1_alg».proof.Proof.KIOut
import proofs.«130248_j9509057593869_1_alg».proof.Proof.RefAtt
import proofs.«130248_j9509057593869_1_alg».proof.Proof.RefSess
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Frm.frame m ρ (fun c => Cert.Kernel.Frm.body_obligation0 _ c) (fun c => Cert.Kernel.Frm.body_obligation1 _ c)

/-- The idealized program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ (fun c => Cert.KernelIdeal.Frm.body_obligation0 _ c) (fun c => Cert.KernelIdeal.Frm.body_obligation1 _ c)

/-- The reference runs and leaves its arguments unchanged: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the specification's two results of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.att
      (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg8))) (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      (Cert.ReferenceIdeal.Read.val_main_v125 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))),
    fun c => Cert.Spec.sess (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Cert.ReferenceIdeal.Read.val_main_v109 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · refine (θ_run Cert.KernelIdeal.defs _ _).mono (fun r h c => ?_)
      (Cert.KernelIdeal.Frm.run_all m ρ (fun c => Cert.KernelIdeal.Frm.body_obligation0 _ c) (fun c => Cert.KernelIdeal.Frm.body_obligation1 _ c))
    exact ⟨(h c _ (Cert.KernelIdeal.Frm.mem_uc Cert.KernelIdeal.main_v51 (by decide))).trans (Cert.KernelIdeal.Val.out0_eq m ρ c),
      (h c _ (Cert.KernelIdeal.Frm.mem_uc Cert.KernelIdeal.main_v64 (by decide))).trans (Cert.KernelIdeal.Val.out1_eq m ρ c),
      (h c _ (Cert.KernelIdeal.Frm.mem_uc Cert.KernelIdeal.main_arg0 (by decide))).trans (Cert.KernelIdeal.Frm.W4_main_arg0 m ρ c),
      (h c _ (Cert.KernelIdeal.Frm.mem_uc Cert.KernelIdeal.main_arg1 (by decide))).trans (Cert.KernelIdeal.Frm.W4_main_arg1 m ρ c),
      (h c _ (Cert.KernelIdeal.Frm.mem_uc Cert.KernelIdeal.main_arg2 (by decide))).trans (Cert.KernelIdeal.Frm.W4_main_arg2 m ρ c),
      (h c _ (Cert.KernelIdeal.Frm.mem_uc Cert.KernelIdeal.main_arg3 (by decide))).trans (Cert.KernelIdeal.Frm.W4_main_arg3 m ρ c),
      (h c _ (Cert.KernelIdeal.Frm.mem_uc Cert.KernelIdeal.main_arg4 (by decide))).trans (Cert.KernelIdeal.Frm.W4_main_arg4 m ρ c),
      (h c _ (Cert.KernelIdeal.Frm.mem_uc Cert.KernelIdeal.main_arg5 (by decide))).trans (Cert.KernelIdeal.Frm.W4_main_arg5 m ρ c),
      (h c _ (Cert.KernelIdeal.Frm.mem_uc Cert.KernelIdeal.main_arg6 (by decide))).trans (Cert.KernelIdeal.Frm.W4_main_arg6 m ρ c),
      (h c _ (Cert.KernelIdeal.Frm.mem_uc Cert.KernelIdeal.main_arg7 (by decide))).trans (Cert.KernelIdeal.Frm.W4_main_arg7 m ρ c),
      (h c _ (Cert.KernelIdeal.Frm.mem_uc Cert.KernelIdeal.main_arg8 (by decide))).trans (Cert.KernelIdeal.Frm.W4_main_arg8 m ρ c),
      (h c _ (Cert.KernelIdeal.Frm.mem_uc Cert.KernelIdeal.main_arg9 (by decide))).trans (Cert.KernelIdeal.Frm.W4_main_arg9 m ρ c),
      (h c _ (Cert.KernelIdeal.Frm.mem_uc Cert.KernelIdeal.main_arg10 (by decide))).trans (Cert.KernelIdeal.Frm.W4_main_arg10 m ρ c),
      (h c _ (Cert.KernelIdeal.Frm.mem_uc Cert.KernelIdeal.main_arg11 (by decide))).trans (Cert.KernelIdeal.Frm.W4_main_arg11 m ρ c),
      (h c _ (Cert.KernelIdeal.Frm.mem_uc Cert.KernelIdeal.main_arg12 (by decide))).trans (Cert.KernelIdeal.Frm.W4_main_arg12 m ρ c),
      (h c _ (Cert.KernelIdeal.Frm.mem_uc Cert.KernelIdeal.main_arg13 (by decide))).trans (Cert.KernelIdeal.Frm.W4_main_arg13 m ρ c),
      (h c _ (Cert.KernelIdeal.Frm.mem_uc Cert.KernelIdeal.main_arg14 (by decide))).trans (Cert.KernelIdeal.Frm.W4_main_arg14 m ρ c),
      (h c _ (Cert.KernelIdeal.Frm.mem_uc Cert.KernelIdeal.main_arg15 (by decide))).trans (Cert.KernelIdeal.Frm.W4_main_arg15 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨g0, g1, g2, g3, g4, g5, g6, g7, g8, g9, g10, g11, g12, g13, g14, g15⟩ := hagree c
      rw [Cert.ReferenceIdeal.Read.val_main_v126_eq, Cert.RefSide.ref_att, g0, g1, g4, g8, g9, g10, g11, g12, g13, g14, g15]
    · obtain ⟨g0, g1, g2, g3, g4, g5, g6, g7, g8, g9, g10, g11, g12, g13, g14, g15⟩ := hagree c
      refine (Cert.ReferenceIdeal.Read.val_main_v116_eq _ _ _ _ _).trans ?_
      rw [Cert.RefSide.ref_sess, g4, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
